-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S320000 : Shape := ⟨1, ![320000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S320000 : S_.BroadcastsInDim S320000 (![] : Fin 0 → Fin S320000.rank)
  reducesTo_S320000_S_d0 : S320000.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S512x512 .f32) (main_arg7 : FVec F S512 .f32) (main_arg8 : FVec F S512x64 .f32) (main_arg9 : FVec F S64 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg6
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x64 .f32 := Host.absf main_arg8
  let main_cst_10 : FVec F S_ .f32 := constant S_ .f32 0x7F800000#32
  let main_v30 : FVec F S512x64 .f32 := broadcastInDim S512x64 ![] bcast_S_S512x64 main_cst_10
  let main_v31 : IVec S512x64 1 := cmpf .olt main_v29 main_v30
  let main_c_11 : IVec S_ 1 := constantI S_ 1 1#1
  let main_v32 : IVec S_ 1 := (fun x v => Host.reduce IntOp.andi x v reducesTo_S512x64_S_d0_1 h_S_) main_v31 main_c_11
  let main_v33 : IVec S_ 1 := andi main_v28 main_v32
  fn_part2 (F := F) main_arg9 main_v33

def fn {F : FTy → Type} [FloatOps F] (main_arg0 : FVec F S20000x512 .f32) (main_arg1 : IVec S320000 32) (main_arg2 : IVec S320000 32) (main_arg3 : FVec F S320000 .f32) (main_arg4 : FVec F S512x512 .f32) (main_arg5 : FVec F S512 .f32) (main_arg6 : FVec F S512x512 .f32) (main_arg7 : FVec F S512 .f32) (main_arg8 : FVec F S512x64 .f32) (main_arg9 : FVec F S64 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S320000 .f32 := Host.absf main_arg3
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_v13 main_v16
-- ==== Kernel.lean ====
abbrev S20000x512 : Shape := ⟨2, ![20000, 512]⟩
abbrev S320000 : Shape := ⟨1, ![320000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S2000x512 : Shape := ⟨2, ![2000, 512]⟩
abbrev S_ : Shape := ⟨0, ![]⟩
abbrev S320000x1 : Shape := ⟨2, ![320000, 1]⟩
abbrev S320000x512 : Shape := ⟨2, ![320000, 512]⟩
abbrev S1x512 : Shape := ⟨2, ![1, 512]⟩
abbrev S20000x64 : Shape := ⟨2, ![20000, 64]⟩
abbrev S2000x64 : Shape := ⟨2, ![2000, 64]⟩
abbrev S320000x64 : Shape := ⟨2, ![320000, 64]⟩
abbrev S1x64 : Shape := ⟨2, ![1, 64]⟩
abbrev S20000 : Shape := ⟨1, ![20000]⟩
abbrev S20000x1 : Shape := ⟨2, ![20000, 1]⟩

abbrev nBuf : Space → Nat
  | .hbm => 91
  | .vmem => 15
  | .smem => 0
  | _ => 0

abbrev bufTy : (tb : Table) → Fin (tcTables nBuf tb) → BufTy
  | .hbm, ⟨0, _⟩ => ⟨S20000x512, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x64, .f32⟩
  | .hbm, ⟨9, _⟩ => ⟨S64, .f32⟩
  | .hbm, ⟨10, _⟩ => ⟨S20000x512, .f32⟩
  | .hbm, ⟨11, _⟩ => ⟨S_, .i32⟩
  | .hbm, ⟨12, _⟩ => ⟨S320000, .i32⟩
  | .hbm, ⟨13, _⟩ => ⟨S320000, .i1⟩
  | .hbm, ⟨14, _⟩ => ⟨S_, .i32⟩
  | .hbm, ⟨15, _⟩ => ⟨S320000, .i32⟩
  | .hbm, ⟨16, _⟩ => ⟨S320000, .i32⟩
  | .hbm, ⟨17, _⟩ => ⟨S320000, .i32⟩
  | .hbm, ⟨18, _⟩ => ⟨S320000x1, .i32⟩
  | .hbm, ⟨19, _⟩ => ⟨S320000x512, .f32⟩
  | .hbm, ⟨20, _⟩ => ⟨S320000x1, .f32⟩
  | .hbm, ⟨21, _⟩ => ⟨S320000x512, .f32⟩
  | .hbm, ⟨22, _⟩ => ⟨S320000x512, .f32⟩
  | .hbm, ⟨23, _⟩ => ⟨S_, .f32⟩
  | .hbm, ⟨24, _⟩ => ⟨S20000x512, .f32⟩
  | .hbm, ⟨25, _⟩ => ⟨S320000x1, .i32⟩
  | .hbm, ⟨26, _⟩ => ⟨S20000x512, .f32⟩
  | .hbm, ⟨27, _⟩ => ⟨S1x512, .f32⟩
  | .hbm, ⟨28, _⟩ => ⟨S20000x512, .f32⟩
  | .hbm, ⟨29, _⟩ => ⟨S20000x512, .f32⟩
  | .hbm, ⟨30, _⟩ => ⟨S_, .f32⟩
  | .hbm, ⟨31, _⟩ => ⟨S20000x512, .f32⟩
  | .hbm, ⟨32, _⟩ => ⟨S20000x512, .f32⟩
  | .hbm, ⟨33, _⟩ => ⟨S20000x512, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x512, .f32⟩
  | .hbm, ⟨43, _⟩ => ⟨S320000x1, .f32⟩
  | .hbm, ⟨44, _⟩ => ⟨S320000x512, .f32⟩
  | .hbm, ⟨45, _⟩ => ⟨S320000x512, .f32⟩
  | .hbm, ⟨46, _⟩ => ⟨S_, .f32⟩
  | .hbm, ⟨47, _⟩ => ⟨S20000x512, .f32⟩
  | .hbm, ⟨48, _⟩ => ⟨S320000x1, .i32⟩
  | .hbm, ⟨49, _⟩ => ⟨S20000x512, .f32⟩
  | .hbm, ⟨50, _⟩ => ⟨S1x512, .f32⟩
  | .hbm, ⟨51, _⟩ => ⟨S20000x512, .f32⟩
  | .hbm, ⟨52, _⟩ => ⟨S20000x512, .f32⟩
  | .hbm, ⟨53, _⟩ => ⟨S_, .f32⟩
  | .hbm, ⟨54, _⟩ => ⟨S20000x512, .f32⟩
  | .hbm, ⟨55, _⟩ => ⟨S20000x512, .f32⟩
  | .hbm, ⟨56, _⟩ => ⟨S20000x64, .f32⟩
  | .hbm, ⟨57, _⟩ => ⟨S_, .i32⟩
  | .hbm, ⟨58, _⟩ => ⟨S320000, .i32⟩
  | .hbm, ⟨59, _⟩ => ⟨S320000, .i1⟩
  | .hbm, ⟨60, _⟩ => ⟨S_, .i32⟩
  | .hbm, ⟨61, _⟩ => ⟨S320000, .i32⟩
  | .hbm, ⟨62, _⟩ => ⟨S320000, .i32⟩
  | .hbm, ⟨63, _⟩ => ⟨S320000, .i32⟩
  | .hbm, ⟨64, _⟩ => ⟨S320000x1, .i32⟩
  | .hbm, ⟨65, _⟩ => ⟨S320000x64, .f32⟩
  | .hbm, ⟨66, _⟩ => ⟨S320000x1, .f32⟩
  | .hbm, ⟨67, _⟩ => ⟨S320000x64, .f32⟩
  | .hbm, ⟨68, _⟩ => ⟨S320000x64, .f32⟩
  | .hbm, ⟨69, _⟩ => ⟨S_, .f32⟩
  | .hbm, ⟨70, _⟩ => ⟨S20000x64, .f32⟩
  | .hbm, ⟨71, _⟩ => ⟨S320000x1, .i32⟩
  | .hbm, ⟨72, _⟩ => ⟨S20000x64, .f32⟩
  | .hbm, ⟨73, _⟩ => ⟨S1x64, .f32⟩
  | .hbm, ⟨74, _⟩ => ⟨S20000x64, .f32⟩
  | .hbm, ⟨75, _⟩ => ⟨S20000x64, .f32⟩
  | .hbm, ⟨76, _⟩ => ⟨S_, .f32⟩
  | .hbm, ⟨77, _⟩ => ⟨S20000, .f32⟩
  | .hbm, ⟨78, _⟩ => ⟨S_, .f32⟩
  | .hbm, ⟨79, _⟩ => ⟨S20000, .f32⟩
  | .hbm, ⟨80, _⟩ => ⟨S20000, .f32⟩
  | .hbm, ⟨81, _⟩ => ⟨S20000x1, .f32⟩
  | .hbm, ⟨82, _⟩ => ⟨S20000x64, .f32⟩
  | .hbm, ⟨83, _⟩ => ⟨S20000x64, .f32⟩
  | .hbm, ⟨84, _⟩ => ⟨S20000x64, .f32⟩
  | .hbm, ⟨85, _⟩ => ⟨S_, .f32⟩
  | .hbm, ⟨86, _⟩ => ⟨S20000, .f32⟩
  | .hbm, ⟨87, _⟩ => ⟨S20000x1, .f32⟩
  | .hbm, ⟨88, _⟩ => ⟨S20000x1, .f32⟩
  | .hbm, ⟨89, _⟩ => ⟨S20000x64, .f32⟩
  | .hbm, ⟨90, _⟩ => ⟨S20000x64, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S512x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S512x64, .f32⟩
  | .local _ .vmem, ⟨13, _⟩ => ⟨S2000x64, .f32⟩
  | .local _ .vmem, ⟨14, _⟩ => ⟨S2000x64, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_c_4 : Ref sig .tc := ⟨.hbm, 57, rfl⟩
abbrev main_v37 : Ref sig .tc := ⟨.hbm, 58, rfl⟩
abbrev main_v38 : Ref sig .tc := ⟨.hbm, 59, rfl⟩
abbrev main_c_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call2_cst : Ref sig .tc := ⟨.hbm, 76, rfl⟩
abbrev main_call2_v0 : Ref sig .tc := ⟨.hbm, 77, rfl⟩
abbrev main_call2_cst_0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_cst_1 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_v53 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x512_0_1 : S320000x1.BroadcastsInDim S320000x512 (![0, 1] : Fin 2 → Fin S320000x512.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  shapeCasts_S2000x512_S2000x512 : S2000x512.ShapeCasts S2000x512
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  bcast_S320000x1_S320000x64_0_1 : S320000x1.BroadcastsInDim S320000x64 (![0, 1] : Fin 2 → Fin S320000x64.rank)
  bcast_S_S20000x64 : S_.BroadcastsInDim S20000x64 (![] : Fin 0 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  reducesTo_S20000x64_S20000_d1 : S20000x64.ReducesTo [1] S20000
  h_S_ : 0 < S_.numel
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  dot_S2000x512_S512x512_S2000x512_1_0_0_1_n_n_wf : DotDims.WF S2000x512 S512x512 S2000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S2000x512_S512x64_S2000x64_1_0_0_1_n_n_wf : DotDims.WF S2000x512 S512x64 S2000x64 [1] [0] [0] [1] [] []
  gather_S20000x64_S320000x1_S320000x64_1_0_n_n_0_1_164_wf : GatherDims.WF S20000x64 S320000x1 S320000x64 [1] [0] [] [0] [] 1 ![1, 64]
  scatter_S20000x64_S320000x1_S320000x64_1_0_0_1_wf : ScatterDims.WF S20000x64 S320000x1 S320000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .f32 = 32 ∨ (Rect.block (s := S20000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S20000x512.size a
  hwx0_2 : ∀ i : grid0.Coords, EltTy.bits .f32 = 32 ∨ (Rect.block (s := S20000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .f32 = 32 ∨ (Rect.block (s := S20000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S20000x512.size a
  hwx1_2 : ∀ i : grid1.Coords, EltTy.bits .f32 = 32 ∨ (Rect.block (s := S20000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S20000x512.size a
  hwx2_0 : ∀ i : grid2.Coords, EltTy.bits .f32 = 32 ∨ (Rect.block (s := S20000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S512x64.size a
  hwx2_1 : ∀ i : grid2.Coords, EltTy.bits .f32 = 32 ∨ (Rect.block (s := S512x64) S512x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S20000x64.size a
  hwx2_2 : ∀ i : grid2.Coords, EltTy.bits .f32 = 32 ∨ (Rect.block (s := S20000x64) S2000x64.size (cc2_transform_2 i) (hinb2_2 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def scatter_S20000x64_S320000x1_S320000x64_1_0_0_1 : ScatterDims S20000x64 S320000x1 S320000x64 where
  updateWindowDims := [1]
  insertedWindowDims := [0]
  scatterDimsToOperandDims := [0]
  indexVectorDim := 1
  wf := scatter_S20000x64_S320000x1_S320000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v35) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S512x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S20000x512 : Shape := ⟨2, ![20000, 512]⟩
abbrev S320000 : Shape := ⟨1, ![320000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S_ : Shape := ⟨0, ![]⟩
abbrev S320000x1 : Shape := ⟨2, ![320000, 1]⟩
abbrev S320000x512 : Shape := ⟨2, ![320000, 512]⟩
abbrev S1x512 : Shape := ⟨2, ![1, 512]⟩
abbrev S20000x64 : Shape := ⟨2, ![20000, 64]⟩
abbrev S320000x64 : Shape := ⟨2, ![320000, 64]⟩
abbrev S1x64 : Shape := ⟨2, ![1, 64]⟩
abbrev S20000 : Shape := ⟨1, ![20000]⟩
abbrev S20000x1 : Shape := ⟨2, ![20000, 1]⟩

abbrev nBuf : Space → Nat
  | .hbm => 91
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x64, .f32⟩
  | .hbm, ⟨9, _⟩ => ⟨S64, .f32⟩
  | .hbm, ⟨10, _⟩ => ⟨S20000x512, .f32⟩
  | .hbm, ⟨11, _⟩ => ⟨S_, .i32⟩
  | .hbm, ⟨12, _⟩ => ⟨S320000, .i32⟩
  | .hbm, ⟨13, _⟩ => ⟨S320000, .i1⟩
  | .hbm, ⟨14, _⟩ => ⟨S_, .i32⟩
  | .hbm, ⟨15, _⟩ => ⟨S320000, .i32⟩
  | .hbm, ⟨16, _⟩ => ⟨S320000, .i32⟩
  | .hbm, ⟨17, _⟩ => ⟨S320000, .i32⟩
  | .hbm, ⟨18, _⟩ => ⟨S320000x1, .i32⟩
  | .hbm, ⟨19, _⟩ => ⟨S320000x512, .f32⟩
  | .hbm, ⟨20, _⟩ => ⟨S320000x1, .f32⟩
  | .hbm, ⟨21, _⟩ => ⟨S320000x512, .f32⟩
  | .hbm, ⟨22, _⟩ => ⟨S320000x512, .f32⟩
  | .hbm, ⟨23, _⟩ => ⟨S_, .f32⟩
  | .hbm, ⟨24, _⟩ => ⟨S20000x512, .f32⟩
  | .hbm, ⟨25, _⟩ => ⟨S320000x1, .i32⟩
  | .hbm, ⟨26, _⟩ => ⟨S20000x512, .f32⟩
  | .hbm, ⟨27, _⟩ => ⟨S1x512, .f32⟩
  | .hbm, ⟨28, _⟩ => ⟨S20000x512, .f32⟩
  | .hbm, ⟨29, _⟩ => ⟨S20000x512, .f32⟩
  | .hbm, ⟨30, _⟩ => ⟨S_, .f32⟩
  | .hbm, ⟨31, _⟩ => ⟨S20000x512, .f32⟩
  | .hbm, ⟨32, _⟩ => ⟨S20000x512, .f32⟩
  | .hbm, ⟨33, _⟩ => ⟨S20000x512, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x512, .f32⟩
  | .hbm, ⟨43, _⟩ => ⟨S320000x1, .f32⟩
  | .hbm, ⟨44, _⟩ => ⟨S320000x512, .f32⟩
  | .hbm, ⟨45, _⟩ => ⟨S320000x512, .f32⟩
  | .hbm, ⟨46, _⟩ => ⟨S_, .f32⟩
  | .hbm, ⟨47, _⟩ => ⟨S20000x512, .f32⟩
  | .hbm, ⟨48, _⟩ => ⟨S320000x1, .i32⟩
  | .hbm, ⟨49, _⟩ => ⟨S20000x512, .f32⟩
  | .hbm, ⟨50, _⟩ => ⟨S1x512, .f32⟩
  | .hbm, ⟨51, _⟩ => ⟨S20000x512, .f32⟩
  | .hbm, ⟨52, _⟩ => ⟨S20000x512, .f32⟩
  | .hbm, ⟨53, _⟩ => ⟨S_, .f32⟩
  | .hbm, ⟨54, _⟩ => ⟨S20000x512, .f32⟩
  | .hbm, ⟨55, _⟩ => ⟨S20000x512, .f32⟩
  | .hbm, ⟨56, _⟩ => ⟨S20000x64, .f32⟩
  | .hbm, ⟨57, _⟩ => ⟨S_, .i32⟩
  | .hbm, ⟨58, _⟩ => ⟨S320000, .i32⟩
  | .hbm, ⟨59, _⟩ => ⟨S320000, .i1⟩
  | .hbm, ⟨60, _⟩ => ⟨S_, .i32⟩
  | .hbm, ⟨61, _⟩ => ⟨S320000, .i32⟩
  | .hbm, ⟨62, _⟩ => ⟨S320000, .i32⟩
  | .hbm, ⟨63, _⟩ => ⟨S320000, .i32⟩
  | .hbm, ⟨64, _⟩ => ⟨S320000x1, .i32⟩
  | .hbm, ⟨65, _⟩ => ⟨S320000x64, .f32⟩
  | .hbm, ⟨66, _⟩ => ⟨S320000x1, .f32⟩
  | .hbm, ⟨67, _⟩ => ⟨S320000x64, .f32⟩
  | .hbm, ⟨68, _⟩ => ⟨S320000x64, .f32⟩
  | .hbm, ⟨69, _⟩ => ⟨S_, .f32⟩
  | .hbm, ⟨70, _⟩ => ⟨S20000x64, .f32⟩
  | .hbm, ⟨71, _⟩ => ⟨S320000x1, .i32⟩
  | .hbm, ⟨72, _⟩ => ⟨S20000x64, .f32⟩
  | .hbm, ⟨73, _⟩ => ⟨S1x64, .f32⟩
  | .hbm, ⟨74, _⟩ => ⟨S20000x64, .f32⟩
  | .hbm, ⟨75, _⟩ => ⟨S20000x64, .f32⟩
  | .hbm, ⟨76, _⟩ => ⟨S_, .f32⟩
  | .hbm, ⟨77, _⟩ => ⟨S20000, .f32⟩
  | .hbm, ⟨78, _⟩ => ⟨S_, .f32⟩
  | .hbm, ⟨79, _⟩ => ⟨S20000, .f32⟩
  | .hbm, ⟨80, _⟩ => ⟨S20000, .f32⟩
  | .hbm, ⟨81, _⟩ => ⟨S20000x1, .f32⟩
  | .hbm, ⟨82, _⟩ => ⟨S20000x64, .f32⟩
  | .hbm, ⟨83, _⟩ => ⟨S20000x64, .f32⟩
  | .hbm, ⟨84, _⟩ => ⟨S20000x64, .f32⟩
  | .hbm, ⟨85, _⟩ => ⟨S_, .f32⟩
  | .hbm, ⟨86, _⟩ => ⟨S20000, .f32⟩
  | .hbm, ⟨87, _⟩ => ⟨S20000x1, .f32⟩
  | .hbm, ⟨88, _⟩ => ⟨S20000x1, .f32⟩
  | .hbm, ⟨89, _⟩ => ⟨S20000x64, .f32⟩
  | .hbm, ⟨90, _⟩ => ⟨S20000x64, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_c_4 : Ref sig .tc := ⟨.hbm, 57, rfl⟩
abbrev main_v37 : Ref sig .tc := ⟨.hbm, 58, rfl⟩
abbrev main_v38 : Ref sig .tc := ⟨.hbm, 59, rfl⟩
abbrev main_c_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call2_cst : Ref sig .tc := ⟨.hbm, 76, rfl⟩
abbrev main_call2_v0 : Ref sig .tc := ⟨.hbm, 77, rfl⟩
abbrev main_call2_cst_0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_cst_1 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_v53 : Ref sig .tc := ⟨.hbm, 90, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x512_0_1 : S320000x1.BroadcastsInDim S320000x512 (![0, 1] : Fin 2 → Fin S320000x512.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S320000x1_S320000x64_0_1 : S320000x1.BroadcastsInDim S320000x64 (![0, 1] : Fin 2 → Fin S320000x64.rank)
  bcast_S_S20000x64 : S_.BroadcastsInDim S20000x64 (![] : Fin 0 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  reducesTo_S20000x64_S20000_d1 : S20000x64.ReducesTo [1] S20000
  h_S_ : 0 < S_.numel
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  dot_S20000x512_S512x512_S20000x512_1_0_0_1_n_n_wf : DotDims.WF S20000x512 S512x512 S20000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S20000x512_S512x64_S20000x64_1_0_0_1_n_n_wf : DotDims.WF S20000x512 S512x64 S20000x64 [1] [0] [0] [1] [] []
  gather_S20000x64_S320000x1_S320000x64_1_0_n_n_0_1_164_wf : GatherDims.WF S20000x64 S320000x1 S320000x64 [1] [0] [] [0] [] 1 ![1, 64]
  scatter_S20000x64_S320000x1_S320000x64_1_0_0_1_wf : ScatterDims.WF S20000x64 S320000x1 S320000x64 [1] [0] [0] 1

variable [Facts₀]

def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S20000x512_S512x64_S20000x64_1_0_0_1_n_n : DotDims S20000x512 S512x64 S20000x64 where
  lhsContracting := [1]
  rhsContracting := [0]
  lhsNonContracting := [0]
  rhsNonContracting := [1]
  lhsBatch := []
  rhsBatch := []
  wf := dot_S20000x512_S512x64_S20000x64_1_0_0_1_n_n_wf
def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def scatter_S20000x64_S320000x1_S320000x64_1_0_0_1 : ScatterDims S20000x64 S320000x1 S320000x64 where
  updateWindowDims := [1]
  insertedWindowDims := [0]
  scatterDimsToOperandDims := [0]
  indexVectorDim := 1
  wf := scatter_S20000x64_S320000x1_S320000x64_1_0_0_1_wf

class Facts : Prop extends Facts₀ where

variable [Facts]
-- ==== Proof.KernelRun.lean ====
/-
  The kernel program's run, with its result named.

  @main of the kernel program is nine segments in a row: a pallas_call, two stretches of host operations, a pallas_call,
  two stretches, a pallas_call, two stretches. The contents of the TensorCore's buffers at each boundary are a fold from
  the launch memory: a host stretch applies its operations' results, a pallas_call replaces its windows' arrays by what
  its write-backs leave and keeps every other buffer. Every weakly fair execution terminates, nothing faulting, with
  every unscoped buffer at the last boundary's contents; read at the result buffer this names the result, and read at the
  argument buffers, which nothing writes, it gives the arguments unchanged.
-/
import proofs.«120037_j78580721648121_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the last
    boundary's contents (the fold `W9` read at it) and the argument arrays end as launched. -/
theorem run_result : θ_run defs (onTc (τ := τ) (main (F := F))) ⟨m, fun _ => 0, ρ⟩ (fun r => ∀ c : Dev nD,
      r.2.mem ((c.tc : Thread nD τ).loc main_v53) = W9 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v53 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.ResultRun

end
-- ==== Proof.MatProd.lean ====
/-
  The product of two tables of extended reals, index by index.

  For a table `a` with rows `r` and inner index `k`, and a table `w` with inner index `k` and columns `q`, the entry
  (r, q) of the product is the sum over the inner index of a(r, k) · w(k, q), taken on the extended reals in the order of
  `Finset.sum` over `Fin K`. Both programs of this certificate compute exactly this sum for each of their three dense
  layers: the kernel row block by row block (a block of 2000 rows of the left table against the whole right table, the
  operands' change of float format being the identity on the extended reals and the accumulator starting at zero), the
  reference in one contraction over the whole tables. Since a row block of the product only reads the same row block of
  the left table, no algebraic law beyond re-indexing the rows joins the two sides; in particular nothing here asks
  the entries to be finite.
-/
import Idealize.ShloMosaic.PureOps.Ideal.Laws
import Idealize.ShloMosaic.Lib.ValueIdx

noncomputable section

namespace Cert.Gcn

open Idealize.ShloMosaic Idealize.ShloMosaic.ValueIdx

/-- Entry (r, q) of the product of an M × K table with a K × N table: the sum over the inner index. -/
def entry {M K N : Nat} (a : (⟨2, ![M, K]⟩ : Shape).Idx → EReal) (w : (⟨2, ![K, N]⟩ : Shape).Idx → EReal)
    (r : Fin M) (q : Fin N) : EReal :=
  ∑ k : Fin K, a (ix2 r k) * w (ix2 k q)

/-- The product table, read at an index of the M × N result. -/
def prod {M K N : Nat} (a : (⟨2, ![M, K]⟩ : Shape).Idx → EReal) (w : (⟨2, ![K, N]⟩ : Shape).Idx → EReal) :
    (⟨2, ![M, N]⟩ : Shape).Idx → EReal :=
  fun i => entry a w ⟨(i 0).val, idx2_lt0 i⟩ ⟨(i 1).val, idx2_lt1 i⟩

theorem prod_apply {M K N : Nat} (a : (⟨2, ![M, K]⟩ : Shape).Idx → EReal) (w : (⟨2, ![K, N]⟩ : Shape).Idx → EReal)
    (i : (⟨2, ![M, N]⟩ : Shape).Idx) :
    prod a w i = ∑ k : Fin K, a (ix2 ⟨(i 0).val, idx2_lt0 i⟩ k) * w (ix2 k ⟨(i 1).val, idx2_lt1 i⟩) := rfl

/-- An entry of the product depends on the row and the column only through their numbers. -/
theorem entry_congr {M K N : Nat} (a : (⟨2, ![M, K]⟩ : Shape).Idx → EReal) (w : (⟨2, ![K, N]⟩ : Shape).Idx → EReal)
    {r r' : Fin M} {q q' : Fin N} (hr : r.val = r'.val) (hq : q.val = q'.val) : entry a w r q = entry a w r' q' := by
  rw [Fin.ext hr, Fin.ext hq]

/-- A row block of the product is the product of the row block. If a block of the left table is read through `e0`,
    the right table through `e1`, and `i` is where the block's entry (p, q) sits in the whole result — `e0` keeping the inner
    index and sending row p to the row of `i`, `e1` keeping the inner index and sending column q to the column of `i` —,
    then entry (p, q) of the block's product is entry `i` of the whole product: the same sum, term by term. -/
theorem entry_of_rows {M M' K N : Nat} (A : (⟨2, ![M, K]⟩ : Shape).Idx → EReal) (B : (⟨2, ![K, N]⟩ : Shape).Idx → EReal)
    (e0 : (⟨2, ![M', K]⟩ : Shape).Idx → (⟨2, ![M, K]⟩ : Shape).Idx) (e1 : (⟨2, ![K, N]⟩ : Shape).Idx → (⟨2, ![K, N]⟩ : Shape).Idx)
    (i : (⟨2, ![M, N]⟩ : Shape).Idx) (p : Fin M') (q : Fin N)
    (h0 : ∀ k : Fin K, e0 (ix2 p k) = ix2 ⟨(i 0).val, idx2_lt0 i⟩ k)
    (h1 : ∀ k : Fin K, e1 (ix2 k q) = ix2 k ⟨(i 1).val, idx2_lt1 i⟩) :
    entry (fun y => A (e0 y)) (fun y => B (e1 y)) p q = prod A B i := by
  unfold prod entry
  refine Finset.sum_congr rfl fun k _ => ?_
  show A (e0 (ix2 p k)) * B (e1 (ix2 k q)) = _
  rw [h0 k, h1 k]

end Cert.Gcn

end
-- ==== Proof.RefHost.lean ====
/-
  The reference as a straight line of host operations, and its run.

  The reference's @main is 81 host operations in a row: three dense contractions (node features against a weight table)
  and, after each, the same sparse step — gather the contracted rows at the edges' source nodes (a negative index wrapped
  once by the number of nodes), scale each gathered row by its edge weight, add the rows up at the edges' destination
  nodes into a zero table, add the bias row; after the first two a maximum with zero, after the third a row-wise
  log-softmax. With no kernel launch among them, every weakly fair execution ends with each buffer at the fold of the
  operations' results over the launch contents. The list is cut here at the three contractions, so that each stretch
  between them can be compared with the kernel program's stretch of the same operations without opening any of them;
  and each contraction, read at an index on the extended reals, is the product of MatProd.
-/
import proofs.«120037_j78580721648121_1_alg».proof.Proof.Gen.ReferenceIdeal
import proofs.«120037_j78580721648121_1_alg».proof.Proof.MatProd
import Idealize.ShloMosaic.Lib.StableHlo.Run
import Idealize.ShloMosaic.Lib.ValueIdx
import Idealize.ShloMosaic.PureOps.Ideal.Laws

noncomputable section

namespace Cert.ReferenceIdeal.HostRun

open Cert.ReferenceIdeal Cert.ReferenceIdeal.Gen Idealize.ShloMosaic Idealize.ShloMosaic.TcCoe Idealize.SL.Sem Idealize.ShloMosaic.StableHlo
open Idealize.ShloMosaic.ValueIdx Cert.Gcn

variable {F : FTy → Type} [FloatOps F]

/-! ## The operations, cut at the contractions -/

/-- The first contraction: the node features against the first weight table. -/
abbrev dense0 : HloOp τ sig (Elt F) :=
  binary main_arg0 main_arg4 main_v0 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F))

/-- The sparse step after it, its bias and the maximum with zero. -/
abbrev host1 : List (HloOp τ sig (Elt F)) :=
  [ nullary main_c (constantI S_ 32 0#32),
    unary main_c main_v1 (broadcastInDim S320000 ![] bcast_S_S320000 : (⟨S_, .i32⟩ : BufTy).Contents (Elt F) → (⟨S320000, .i32⟩ : BufTy).Contents (Elt F)),
    binary main_arg1 main_v1 main_v2 (cmpi .slt : (⟨S320000, .i32⟩ : BufTy).Contents (Elt F) → (⟨S320000, .i32⟩ : BufTy).Contents (Elt F) → (⟨S320000, .i1⟩ : BufTy).Contents (Elt F)),
    nullary main_c_0 (constantI S_ 32 20000#32),
    unary main_c_0 main_v3 (broadcastInDim S320000 ![] bcast_S_S320000 : (⟨S_, .i32⟩ : BufTy).Contents (Elt F) → (⟨S320000, .i32⟩ : BufTy).Contents (Elt F)),
    binary main_arg1 main_v3 main_v4 (addi : (⟨S320000, .i32⟩ : BufTy).Contents (Elt F) → (⟨S320000, .i32⟩ : BufTy).Contents (Elt F) → (⟨S320000, .i32⟩ : BufTy).Contents (Elt F)),
    ternary main_v2 main_v4 main_arg1 main_v5 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v5 main_v6 (broadcastInDim S320000x1 ![0] bcast_S320000_S320000x1_0 : (⟨S320000, .i32⟩ : BufTy).Contents (Elt F) → (⟨S320000x1, .i32⟩ : BufTy).Contents (Elt F)),
    binary main_v0 main_v6 main_v7 ((fun x i => Host.gather gather_S20000x512_S320000x1_S320000x512_1_0_n_n_0_1_1512 x i) : (⟨S20000x512, .f32⟩ : BufTy).Contents (Elt F) → (⟨S320000x1, .i32⟩ : BufTy).Contents (Elt F) → (⟨S320000x512, .f32⟩ : BufTy).Contents (Elt F)),
    unary main_arg3 main_v8 (broadcastInDim S320000x1 ![0] bcast_S320000_S320000x1_0 : (⟨S320000, .f32⟩ : BufTy).Contents (Elt F) → (⟨S320000x1, .f32⟩ : BufTy).Contents (Elt F)),
    unary main_v8 main_v9 (broadcastInDim S320000x512 ![0, 1] bcast_S320000x1_S320000x512_0_1 : (⟨S320000x1, .f32⟩ : BufTy).Contents (Elt F) → (⟨S320000x512, .f32⟩ : BufTy).Contents (Elt F)),
    binary main_v7 main_v9 main_v10 (mulf : (⟨S320000x512, .f32⟩ : BufTy).Contents (Elt F) → (⟨S320000x512, .f32⟩ : BufTy).Contents (Elt F) → (⟨S320000x512, .f32⟩ : BufTy).Contents (Elt F)),
    nullary main_cst (constant S_ .f32 0x00000000#32),
    unary main_cst main_v11 (broadcastInDim S20000x512 ![] bcast_S_S20000x512 : (⟨S_, .f32⟩ : BufTy).Contents (Elt F) → (⟨S20000x512, .f32⟩ : BufTy).Contents (Elt F)),
    unary main_arg2 main_v12 (broadcastInDim S320000x1 ![0] bcast_S320000_S320000x1_0 : (⟨S320000, .i32⟩ : BufTy).Contents (Elt F) → (⟨S320000x1, .i32⟩ : BufTy).Contents (Elt F)),
    ternary main_v11 main_v12 main_v10 main_v13 ((fun x i u => Host.scatterAdd scatter_S20000x512_S320000x1_S320000x512_1_0_0_1 x i u) : (⟨S20000x512, .f32⟩ : BufTy).Contents (Elt F) → (⟨S320000x1, .i32⟩ : BufTy).Contents (Elt F) → (⟨S320000x512, .f32⟩ : BufTy).Contents (Elt F) → (⟨S20000x512, .f32⟩ : BufTy).Contents (Elt F)),
    unary main_arg5 main_v14 (broadcastInDim S1x512 ![1] bcast_S512_S1x512_1 : (⟨S512, .f32⟩ : BufTy).Contents (Elt F) → (⟨S1x512, .f32⟩ : BufTy).Contents (Elt F)),
    unary main_v14 main_v15 (broadcastInDim S20000x512 ![0, 1] bcast_S1x512_S20000x512_0_1 : (⟨S1x512, .f32⟩ : BufTy).Contents (Elt F) → (⟨S20000x512, .f32⟩ : BufTy).Contents (Elt F)),
    binary main_v13 main_v15 main_v16 (addf : (⟨S20000x512, .f32⟩ : BufTy).Contents (Elt F) → (⟨S20000x512, .f32⟩ : BufTy).Contents (Elt F) → (⟨S20000x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S20000x512, .f32⟩) main_call0_v0) (broadcastInDim S20000x512 ![] bcast_S_S20000x512),
    TRef.binary (TRef.of (T := ⟨S20000x512, .f32⟩) main_v16) (TRef.of (T := ⟨S20000x512, .f32⟩) main_call0_v0) (TRef.of (T := ⟨S20000x512, .f32⟩) main_v17) maximumf ]

/-- The second contraction: the first layer's activations against the second weight table. -/
abbrev dense1 : HloOp τ sig (Elt F) :=
  binary main_v17 main_arg6 main_v18 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F))

/-- The sparse step after it, its bias and the maximum with zero. -/
abbrev host2 : List (HloOp τ sig (Elt F)) :=
  [ nullary main_c_1 (constantI S_ 32 0#32),
    unary main_c_1 main_v19 (broadcastInDim S320000 ![] bcast_S_S320000 : (⟨S_, .i32⟩ : BufTy).Contents (Elt F) → (⟨S320000, .i32⟩ : BufTy).Contents (Elt F)),
    binary main_arg1 main_v19 main_v20 (cmpi .slt : (⟨S320000, .i32⟩ : BufTy).Contents (Elt F) → (⟨S320000, .i32⟩ : BufTy).Contents (Elt F) → (⟨S320000, .i1⟩ : BufTy).Contents (Elt F)),
    nullary main_c_2 (constantI S_ 32 20000#32),
    unary main_c_2 main_v21 (broadcastInDim S320000 ![] bcast_S_S320000 : (⟨S_, .i32⟩ : BufTy).Contents (Elt F) → (⟨S320000, .i32⟩ : BufTy).Contents (Elt F)),
    binary main_arg1 main_v21 main_v22 (addi : (⟨S320000, .i32⟩ : BufTy).Contents (Elt F) → (⟨S320000, .i32⟩ : BufTy).Contents (Elt F) → (⟨S320000, .i32⟩ : BufTy).Contents (Elt F)),
    ternary main_v20 main_v22 main_arg1 main_v23 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v23 main_v24 (broadcastInDim S320000x1 ![0] bcast_S320000_S320000x1_0 : (⟨S320000, .i32⟩ : BufTy).Contents (Elt F) → (⟨S320000x1, .i32⟩ : BufTy).Contents (Elt F)),
    binary main_v18 main_v24 main_v25 ((fun x i => Host.gather gather_S20000x512_S320000x1_S320000x512_1_0_n_n_0_1_1512 x i) : (⟨S20000x512, .f32⟩ : BufTy).Contents (Elt F) → (⟨S320000x1, .i32⟩ : BufTy).Contents (Elt F) → (⟨S320000x512, .f32⟩ : BufTy).Contents (Elt F)),
    unary main_arg3 main_v26 (broadcastInDim S320000x1 ![0] bcast_S320000_S320000x1_0 : (⟨S320000, .f32⟩ : BufTy).Contents (Elt F) → (⟨S320000x1, .f32⟩ : BufTy).Contents (Elt F)),
    unary main_v26 main_v27 (broadcastInDim S320000x512 ![0, 1] bcast_S320000x1_S320000x512_0_1 : (⟨S320000x1, .f32⟩ : BufTy).Contents (Elt F) → (⟨S320000x512, .f32⟩ : BufTy).Contents (Elt F)),
    binary main_v25 main_v27 main_v28 (mulf : (⟨S320000x512, .f32⟩ : BufTy).Contents (Elt F) → (⟨S320000x512, .f32⟩ : BufTy).Contents (Elt F) → (⟨S320000x512, .f32⟩ : BufTy).Contents (Elt F)),
    nullary main_cst_3 (constant S_ .f32 0x00000000#32),
    unary main_cst_3 main_v29 (broadcastInDim S20000x512 ![] bcast_S_S20000x512 : (⟨S_, .f32⟩ : BufTy).Contents (Elt F) → (⟨S20000x512, .f32⟩ : BufTy).Contents (Elt F)),
    unary main_arg2 main_v30 (broadcastInDim S320000x1 ![0] bcast_S320000_S320000x1_0 : (⟨S320000, .i32⟩ : BufTy).Contents (Elt F) → (⟨S320000x1, .i32⟩ : BufTy).Contents (Elt F)),
    ternary main_v29 main_v30 main_v28 main_v31 ((fun x i u => Host.scatterAdd scatter_S20000x512_S320000x1_S320000x512_1_0_0_1 x i u) : (⟨S20000x512, .f32⟩ : BufTy).Contents (Elt F) → (⟨S320000x1, .i32⟩ : BufTy).Contents (Elt F) → (⟨S320000x512, .f32⟩ : BufTy).Contents (Elt F) → (⟨S20000x512, .f32⟩ : BufTy).Contents (Elt F)),
    unary main_arg7 main_v32 (broadcastInDim S1x512 ![1] bcast_S512_S1x512_1 : (⟨S512, .f32⟩ : BufTy).Contents (Elt F) → (⟨S1x512, .f32⟩ : BufTy).Contents (Elt F)),
    unary main_v32 main_v33 (broadcastInDim S20000x512 ![0, 1] bcast_S1x512_S20000x512_0_1 : (⟨S1x512, .f32⟩ : BufTy).Contents (Elt F) → (⟨S20000x512, .f32⟩ : BufTy).Contents (Elt F)),
    binary main_v31 main_v33 main_v34 (addf : (⟨S20000x512, .f32⟩ : BufTy).Contents (Elt F) → (⟨S20000x512, .f32⟩ : BufTy).Contents (Elt F) → (⟨S20000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S20000x512, .f32⟩) main_call1_v0) (broadcastInDim S20000x512 ![] bcast_S_S20000x512),
    TRef.binary (TRef.of (T := ⟨S20000x512, .f32⟩) main_v34) (TRef.of (T := ⟨S20000x512, .f32⟩) main_call1_v0) (TRef.of (T := ⟨S20000x512, .f32⟩) main_v35) maximumf ]

/-- The third contraction: the second layer's activations against the third weight table. -/
abbrev dense2 : HloOp τ sig (Elt F) :=
  binary main_v35 main_arg8 main_v36 ((fun l r => Host.dotGeneral dot_S20000x512_S512x64_S20000x64_1_0_0_1_n_n none l r) : (⟨S20000x512, .f32⟩ : BufTy).Contents (Elt F) → (⟨S512x64, .f32⟩ : BufTy).Contents (Elt F) → (⟨S20000x64, .f32⟩ : BufTy).Contents (Elt F))

/-- The sparse step after it, its bias and the row-wise log-softmax. -/
abbrev host3 : List (HloOp τ sig (Elt F)) :=
  [ nullary main_c_4 (constantI S_ 32 0#32),
    unary main_c_4 main_v37 (broadcastInDim S320000 ![] bcast_S_S320000 : (⟨S_, .i32⟩ : BufTy).Contents (Elt F) → (⟨S320000, .i32⟩ : BufTy).Contents (Elt F)),
    binary main_arg1 main_v37 main_v38 (cmpi .slt : (⟨S320000, .i32⟩ : BufTy).Contents (Elt F) → (⟨S320000, .i32⟩ : BufTy).Contents (Elt F) → (⟨S320000, .i1⟩ : BufTy).Contents (Elt F)),
    nullary main_c_5 (constantI S_ 32 20000#32),
    unary main_c_5 main_v39 (broadcastInDim S320000 ![] bcast_S_S320000 : (⟨S_, .i32⟩ : BufTy).Contents (Elt F) → (⟨S320000, .i32⟩ : BufTy).Contents (Elt F)),
    binary main_arg1 main_v39 main_v40 (addi : (⟨S320000, .i32⟩ : BufTy).Contents (Elt F) → (⟨S320000, .i32⟩ : BufTy).Contents (Elt F) → (⟨S320000, .i32⟩ : BufTy).Contents (Elt F)),
    ternary main_v38 main_v40 main_arg1 main_v41 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v41 main_v42 (broadcastInDim S320000x1 ![0] bcast_S320000_S320000x1_0 : (⟨S320000, .i32⟩ : BufTy).Contents (Elt F) → (⟨S320000x1, .i32⟩ : BufTy).Contents (Elt F)),
    binary main_v36 main_v42 main_v43 ((fun x i => Host.gather gather_S20000x64_S320000x1_S320000x64_1_0_n_n_0_1_164 x i) : (⟨S20000x64, .f32⟩ : BufTy).Contents (Elt F) → (⟨S320000x1, .i32⟩ : BufTy).Contents (Elt F) → (⟨S320000x64, .f32⟩ : BufTy).Contents (Elt F)),
    unary main_arg3 main_v44 (broadcastInDim S320000x1 ![0] bcast_S320000_S320000x1_0 : (⟨S320000, .f32⟩ : BufTy).Contents (Elt F) → (⟨S320000x1, .f32⟩ : BufTy).Contents (Elt F)),
    unary main_v44 main_v45 (broadcastInDim S320000x64 ![0, 1] bcast_S320000x1_S320000x64_0_1 : (⟨S320000x1, .f32⟩ : BufTy).Contents (Elt F) → (⟨S320000x64, .f32⟩ : BufTy).Contents (Elt F)),
    binary main_v43 main_v45 main_v46 (mulf : (⟨S320000x64, .f32⟩ : BufTy).Contents (Elt F) → (⟨S320000x64, .f32⟩ : BufTy).Contents (Elt F) → (⟨S320000x64, .f32⟩ : BufTy).Contents (Elt F)),
    nullary main_cst_6 (constant S_ .f32 0x00000000#32),
    unary main_cst_6 main_v47 (broadcastInDim S20000x64 ![] bcast_S_S20000x64 : (⟨S_, .f32⟩ : BufTy).Contents (Elt F) → (⟨S20000x64, .f32⟩ : BufTy).Contents (Elt F)),
    unary main_arg2 main_v48 (broadcastInDim S320000x1 ![0] bcast_S320000_S320000x1_0 : (⟨S320000, .i32⟩ : BufTy).Contents (Elt F) → (⟨S320000x1, .i32⟩ : BufTy).Contents (Elt F)),
    ternary main_v47 main_v48 main_v46 main_v49 ((fun x i u => Host.scatterAdd scatter_S20000x64_S320000x1_S320000x64_1_0_0_1 x i u) : (⟨S20000x64, .f32⟩ : BufTy).Contents (Elt F) → (⟨S320000x1, .i32⟩ : BufTy).Contents (Elt F) → (⟨S320000x64, .f32⟩ : BufTy).Contents (Elt F) → (⟨S20000x64, .f32⟩ : BufTy).Contents (Elt F)),
    unary main_arg9 main_v50 (broadcastInDim S1x64 ![1] bcast_S64_S1x64_1 : (⟨S64, .f32⟩ : BufTy).Contents (Elt F) → (⟨S1x64, .f32⟩ : BufTy).Contents (Elt F)),
    unary main_v50 main_v51 (broadcastInDim S20000x64 ![0, 1] bcast_S1x64_S20000x64_0_1 : (⟨S1x64, .f32⟩ : BufTy).Contents (Elt F) → (⟨S20000x64, .f32⟩ : BufTy).Contents (Elt F)),
    binary main_v49 main_v51 main_v52 (addf : (⟨S20000x64, .f32⟩ : BufTy).Contents (Elt F) → (⟨S20000x64, .f32⟩ : BufTy).Contents (Elt F) → (⟨S20000x64, .f32⟩ : BufTy).Contents (Elt F)),
    TRef.nullary (TRef.of (T := ⟨S_, .f32⟩) main_call2_cst) (constant S_ .f32 0xFF800000#32),
    TRef.binary (TRef.of (T := ⟨S20000x64, .f32⟩) main_v52) (TRef.of (T := ⟨S_, .f32⟩) main_call2_cst) (TRef.of (T := ⟨S20000, .f32⟩) main_call2_v0) (fun x v => Host.reduce FloatOps.maximumf x v reducesTo_S20000x64_S20000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S20000, .f32⟩) main_call2_v1) (broadcastInDim S20000 ![] bcast_S_S20000),
    TRef.binary (TRef.of (T := ⟨S20000, .f32⟩) main_call2_v1) (TRef.of (T := ⟨S20000, .f32⟩) main_call2_v0) (TRef.of (T := ⟨S20000, .f32⟩) main_call2_v2) maximumf,
    TRef.unary (TRef.of (T := ⟨S20000, .f32⟩) main_call2_v2) (TRef.of (T := ⟨S20000x1, .f32⟩) main_call2_v3) (broadcastInDim S20000x1 ![0] bcast_S20000_S20000x1_0),
    TRef.unary (TRef.of (T := ⟨S20000x1, .f32⟩) main_call2_v3) (TRef.of (T := ⟨S20000x64, .f32⟩) main_call2_v4) (broadcastInDim S20000x64 ![0, 1] bcast_S20000x1_S20000x64_0_1),
    TRef.binary (TRef.of (T := ⟨S20000x64, .f32⟩) main_v52) (TRef.of (T := ⟨S20000x64, .f32⟩) main_call2_v4) (TRef.of (T := ⟨S20000x64, .f32⟩) main_call2_v5) subf,
    TRef.unary (TRef.of (T := ⟨S20000x64, .f32⟩) main_call2_v5) (TRef.of (T := ⟨S20000x64, .f32⟩) main_call2_v6) Host.exp,
    TRef.nullary (TRef.of (T := ⟨S_, .f32⟩) main_call2_cst_1) (constant S_ .f32 0x00000000#32),
    TRef.binary (TRef.of (T := ⟨S20000x64, .f32⟩) main_call2_v6) (TRef.of (T := ⟨S_, .f32⟩) main_call2_cst_1) (TRef.of (T := ⟨S20000, .f32⟩) main_call2_v7) (fun x v => Host.reduceAdd x v reducesTo_S20000x64_S20000_d1 h_S_),
    TRef.unary (TRef.of (T := ⟨S20000, .f32⟩) main_call2_v7) (TRef.of (T := ⟨S20000x1, .f32⟩) main_call2_v8) (broadcastInDim S20000x1 ![0] bcast_S20000_S20000x1_0),
    TRef.unary (TRef.of (T := ⟨S20000x1, .f32⟩) main_call2_v8) (TRef.of (T := ⟨S20000x1, .f32⟩) main_call2_v9) Host.log,
    TRef.unary (TRef.of (T := ⟨S20000x1, .f32⟩) main_call2_v9) (TRef.of (T := ⟨S20000x64, .f32⟩) main_call2_v10) (broadcastInDim S20000x64 ![0, 1] bcast_S20000x1_S20000x64_0_1),
    TRef.binary (TRef.of (T := ⟨S20000x64, .f32⟩) main_call2_v5) (TRef.of (T := ⟨S20000x64, .f32⟩) main_call2_v10) (TRef.of (T := ⟨S20000x64, .f32⟩) main_v53) subf ]

/-- @main's 81 operations, in order. -/
abbrev ops : List (HloOp τ sig (Elt F)) :=
  [ binary main_arg0 main_arg4 main_v0 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    nullary main_c (constantI S_ 32 0#32),
    unary main_c main_v1 (broadcastInDim S320000 ![] bcast_S_S320000 : (⟨S_, .i32⟩ : BufTy).Contents (Elt F) → (⟨S320000, .i32⟩ : BufTy).Contents (Elt F)),
    binary main_arg1 main_v1 main_v2 (cmpi .slt : (⟨S320000, .i32⟩ : BufTy).Contents (Elt F) → (⟨S320000, .i32⟩ : BufTy).Contents (Elt F) → (⟨S320000, .i1⟩ : BufTy).Contents (Elt F)),
    nullary main_c_0 (constantI S_ 32 20000#32),
    unary main_c_0 main_v3 (broadcastInDim S320000 ![] bcast_S_S320000 : (⟨S_, .i32⟩ : BufTy).Contents (Elt F) → (⟨S320000, .i32⟩ : BufTy).Contents (Elt F)),
    binary main_arg1 main_v3 main_v4 (addi : (⟨S320000, .i32⟩ : BufTy).Contents (Elt F) → (⟨S320000, .i32⟩ : BufTy).Contents (Elt F) → (⟨S320000, .i32⟩ : BufTy).Contents (Elt F)),
    ternary main_v2 main_v4 main_arg1 main_v5 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v5 main_v6 (broadcastInDim S320000x1 ![0] bcast_S320000_S320000x1_0 : (⟨S320000, .i32⟩ : BufTy).Contents (Elt F) → (⟨S320000x1, .i32⟩ : BufTy).Contents (Elt F)),
    binary main_v0 main_v6 main_v7 ((fun x i => Host.gather gather_S20000x512_S320000x1_S320000x512_1_0_n_n_0_1_1512 x i) : (⟨S20000x512, .f32⟩ : BufTy).Contents (Elt F) → (⟨S320000x1, .i32⟩ : BufTy).Contents (Elt F) → (⟨S320000x512, .f32⟩ : BufTy).Contents (Elt F)),
    unary main_arg3 main_v8 (broadcastInDim S320000x1 ![0] bcast_S320000_S320000x1_0 : (⟨S320000, .f32⟩ : BufTy).Contents (Elt F) → (⟨S320000x1, .f32⟩ : BufTy).Contents (Elt F)),
    unary main_v8 main_v9 (broadcastInDim S320000x512 ![0, 1] bcast_S320000x1_S320000x512_0_1 : (⟨S320000x1, .f32⟩ : BufTy).Contents (Elt F) → (⟨S320000x512, .f32⟩ : BufTy).Contents (Elt F)),
    binary main_v7 main_v9 main_v10 (mulf : (⟨S320000x512, .f32⟩ : BufTy).Contents (Elt F) → (⟨S320000x512, .f32⟩ : BufTy).Contents (Elt F) → (⟨S320000x512, .f32⟩ : BufTy).Contents (Elt F)),
    nullary main_cst (constant S_ .f32 0x00000000#32),
    unary main_cst main_v11 (broadcastInDim S20000x512 ![] bcast_S_S20000x512 : (⟨S_, .f32⟩ : BufTy).Contents (Elt F) → (⟨S20000x512, .f32⟩ : BufTy).Contents (Elt F)),
    unary main_arg2 main_v12 (broadcastInDim S320000x1 ![0] bcast_S320000_S320000x1_0 : (⟨S320000, .i32⟩ : BufTy).Contents (Elt F) → (⟨S320000x1, .i32⟩ : BufTy).Contents (Elt F)),
    ternary main_v11 main_v12 main_v10 main_v13 ((fun x i u => Host.scatterAdd scatter_S20000x512_S320000x1_S320000x512_1_0_0_1 x i u) : (⟨S20000x512, .f32⟩ : BufTy).Contents (Elt F) → (⟨S320000x1, .i32⟩ : BufTy).Contents (Elt F) → (⟨S320000x512, .f32⟩ : BufTy).Contents (Elt F) → (⟨S20000x512, .f32⟩ : BufTy).Contents (Elt F)),
    unary main_arg5 main_v14 (broadcastInDim S1x512 ![1] bcast_S512_S1x512_1 : (⟨S512, .f32⟩ : BufTy).Contents (Elt F) → (⟨S1x512, .f32⟩ : BufTy).Contents (Elt F)),
    unary main_v14 main_v15 (broadcastInDim S20000x512 ![0, 1] bcast_S1x512_S20000x512_0_1 : (⟨S1x512, .f32⟩ : BufTy).Contents (Elt F) → (⟨S20000x512, .f32⟩ : BufTy).Contents (Elt F)),
    binary main_v13 main_v15 main_v16 (addf : (⟨S20000x512, .f32⟩ : BufTy).Contents (Elt F) → (⟨S20000x512, .f32⟩ : BufTy).Contents (Elt F) → (⟨S20000x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S20000x512, .f32⟩) main_call0_v0) (broadcastInDim S20000x512 ![] bcast_S_S20000x512),
    TRef.binary (TRef.of (T := ⟨S20000x512, .f32⟩) main_v16) (TRef.of (T := ⟨S20000x512, .f32⟩) main_call0_v0) (TRef.of (T := ⟨S20000x512, .f32⟩) main_v17) maximumf,
    binary main_v17 main_arg6 main_v18 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    nullary main_c_1 (constantI S_ 32 0#32),
    unary main_c_1 main_v19 (broadcastInDim S320000 ![] bcast_S_S320000 : (⟨S_, .i32⟩ : BufTy).Contents (Elt F) → (⟨S320000, .i32⟩ : BufTy).Contents (Elt F)),
    binary main_arg1 main_v19 main_v20 (cmpi .slt : (⟨S320000, .i32⟩ : BufTy).Contents (Elt F) → (⟨S320000, .i32⟩ : BufTy).Contents (Elt F) → (⟨S320000, .i1⟩ : BufTy).Contents (Elt F)),
    nullary main_c_2 (constantI S_ 32 20000#32),
    unary main_c_2 main_v21 (broadcastInDim S320000 ![] bcast_S_S320000 : (⟨S_, .i32⟩ : BufTy).Contents (Elt F) → (⟨S320000, .i32⟩ : BufTy).Contents (Elt F)),
    binary main_arg1 main_v21 main_v22 (addi : (⟨S320000, .i32⟩ : BufTy).Contents (Elt F) → (⟨S320000, .i32⟩ : BufTy).Contents (Elt F) → (⟨S320000, .i32⟩ : BufTy).Contents (Elt F)),
    ternary main_v20 main_v22 main_arg1 main_v23 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v23 main_v24 (broadcastInDim S320000x1 ![0] bcast_S320000_S320000x1_0 : (⟨S320000, .i32⟩ : BufTy).Contents (Elt F) → (⟨S320000x1, .i32⟩ : BufTy).Contents (Elt F)),
    binary main_v18 main_v24 main_v25 ((fun x i => Host.gather gather_S20000x512_S320000x1_S320000x512_1_0_n_n_0_1_1512 x i) : (⟨S20000x512, .f32⟩ : BufTy).Contents (Elt F) → (⟨S320000x1, .i32⟩ : BufTy).Contents (Elt F) → (⟨S320000x512, .f32⟩ : BufTy).Contents (Elt F)),
    unary main_arg3 main_v26 (broadcastInDim S320000x1 ![0] bcast_S320000_S320000x1_0 : (⟨S320000, .f32⟩ : BufTy).Contents (Elt F) → (⟨S320000x1, .f32⟩ : BufTy).Contents (Elt F)),
    unary main_v26 main_v27 (broadcastInDim S320000x512 ![0, 1] bcast_S320000x1_S320000x512_0_1 : (⟨S320000x1, .f32⟩ : BufTy).Contents (Elt F) → (⟨S320000x512, .f32⟩ : BufTy).Contents (Elt F)),
    binary main_v25 main_v27 main_v28 (mulf : (⟨S320000x512, .f32⟩ : BufTy).Contents (Elt F) → (⟨S320000x512, .f32⟩ : BufTy).Contents (Elt F) → (⟨S320000x512, .f32⟩ : BufTy).Contents (Elt F)),
    nullary main_cst_3 (constant S_ .f32 0x00000000#32),
    unary main_cst_3 main_v29 (broadcastInDim S20000x512 ![] bcast_S_S20000x512 : (⟨S_, .f32⟩ : BufTy).Contents (Elt F) → (⟨S20000x512, .f32⟩ : BufTy).Contents (Elt F)),
    unary main_arg2 main_v30 (broadcastInDim S320000x1 ![0] bcast_S320000_S320000x1_0 : (⟨S320000, .i32⟩ : BufTy).Contents (Elt F) → (⟨S320000x1, .i32⟩ : BufTy).Contents (Elt F)),
    ternary main_v29 main_v30 main_v28 main_v31 ((fun x i u => Host.scatterAdd scatter_S20000x512_S320000x1_S320000x512_1_0_0_1 x i u) : (⟨S20000x512, .f32⟩ : BufTy).Contents (Elt F) → (⟨S320000x1, .i32⟩ : BufTy).Contents (Elt F) → (⟨S320000x512, .f32⟩ : BufTy).Contents (Elt F) → (⟨S20000x512, .f32⟩ : BufTy).Contents (Elt F)),
    unary main_arg7 main_v32 (broadcastInDim S1x512 ![1] bcast_S512_S1x512_1 : (⟨S512, .f32⟩ : BufTy).Contents (Elt F) → (⟨S1x512, .f32⟩ : BufTy).Contents (Elt F)),
    unary main_v32 main_v33 (broadcastInDim S20000x512 ![0, 1] bcast_S1x512_S20000x512_0_1 : (⟨S1x512, .f32⟩ : BufTy).Contents (Elt F) → (⟨S20000x512, .f32⟩ : BufTy).Contents (Elt F)),
    binary main_v31 main_v33 main_v34 (addf : (⟨S20000x512, .f32⟩ : BufTy).Contents (Elt F) → (⟨S20000x512, .f32⟩ : BufTy).Contents (Elt F) → (⟨S20000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S20000x512, .f32⟩) main_call1_v0) (broadcastInDim S20000x512 ![] bcast_S_S20000x512),
    TRef.binary (TRef.of (T := ⟨S20000x512, .f32⟩) main_v34) (TRef.of (T := ⟨S20000x512, .f32⟩) main_call1_v0) (TRef.of (T := ⟨S20000x512, .f32⟩) main_v35) maximumf,
    binary main_v35 main_arg8 main_v36 ((fun l r => Host.dotGeneral dot_S20000x512_S512x64_S20000x64_1_0_0_1_n_n none l r) : (⟨S20000x512, .f32⟩ : BufTy).Contents (Elt F) → (⟨S512x64, .f32⟩ : BufTy).Contents (Elt F) → (⟨S20000x64, .f32⟩ : BufTy).Contents (Elt F)),
    nullary main_c_4 (constantI S_ 32 0#32),
    unary main_c_4 main_v37 (broadcastInDim S320000 ![] bcast_S_S320000 : (⟨S_, .i32⟩ : BufTy).Contents (Elt F) → (⟨S320000, .i32⟩ : BufTy).Contents (Elt F)),
    binary main_arg1 main_v37 main_v38 (cmpi .slt : (⟨S320000, .i32⟩ : BufTy).Contents (Elt F) → (⟨S320000, .i32⟩ : BufTy).Contents (Elt F) → (⟨S320000, .i1⟩ : BufTy).Contents (Elt F)),
    nullary main_c_5 (constantI S_ 32 20000#32),
    unary main_c_5 main_v39 (broadcastInDim S320000 ![] bcast_S_S320000 : (⟨S_, .i32⟩ : BufTy).Contents (Elt F) → (⟨S320000, .i32⟩ : BufTy).Contents (Elt F)),
    binary main_arg1 main_v39 main_v40 (addi : (⟨S320000, .i32⟩ : BufTy).Contents (Elt F) → (⟨S320000, .i32⟩ : BufTy).Contents (Elt F) → (⟨S320000, .i32⟩ : BufTy).Contents (Elt F)),
    ternary main_v38 main_v40 main_arg1 main_v41 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v41 main_v42 (broadcastInDim S320000x1 ![0] bcast_S320000_S320000x1_0 : (⟨S320000, .i32⟩ : BufTy).Contents (Elt F) → (⟨S320000x1, .i32⟩ : BufTy).Contents (Elt F)),
    binary main_v36 main_v42 main_v43 ((fun x i => Host.gather gather_S20000x64_S320000x1_S320000x64_1_0_n_n_0_1_164 x i) : (⟨S20000x64, .f32⟩ : BufTy).Contents (Elt F) → (⟨S320000x1, .i32⟩ : BufTy).Contents (Elt F) → (⟨S320000x64, .f32⟩ : BufTy).Contents (Elt F)),
    unary main_arg3 main_v44 (broadcastInDim S320000x1 ![0] bcast_S320000_S320000x1_0 : (⟨S320000, .f32⟩ : BufTy).Contents (Elt F) → (⟨S320000x1, .f32⟩ : BufTy).Contents (Elt F)),
    unary main_v44 main_v45 (broadcastInDim S320000x64 ![0, 1] bcast_S320000x1_S320000x64_0_1 : (⟨S320000x1, .f32⟩ : BufTy).Contents (Elt F) → (⟨S320000x64, .f32⟩ : BufTy).Contents (Elt F)),
    binary main_v43 main_v45 main_v46 (mulf : (⟨S320000x64, .f32⟩ : BufTy).Contents (Elt F) → (⟨S320000x64, .f32⟩ : BufTy).Contents (Elt F) → (⟨S320000x64, .f32⟩ : BufTy).Contents (Elt F)),
    nullary main_cst_6 (constant S_ .f32 0x00000000#32),
    unary main_cst_6 main_v47 (broadcastInDim S20000x64 ![] bcast_S_S20000x64 : (⟨S_, .f32⟩ : BufTy).Contents (Elt F) → (⟨S20000x64, .f32⟩ : BufTy).Contents (Elt F)),
    unary main_arg2 main_v48 (broadcastInDim S320000x1 ![0] bcast_S320000_S320000x1_0 : (⟨S320000, .i32⟩ : BufTy).Contents (Elt F) → (⟨S320000x1, .i32⟩ : BufTy).Contents (Elt F)),
    ternary main_v47 main_v48 main_v46 main_v49 ((fun x i u => Host.scatterAdd scatter_S20000x64_S320000x1_S320000x64_1_0_0_1 x i u) : (⟨S20000x64, .f32⟩ : BufTy).Contents (Elt F) → (⟨S320000x1, .i32⟩ : BufTy).Contents (Elt F) → (⟨S320000x64, .f32⟩ : BufTy).Contents (Elt F) → (⟨S20000x64, .f32⟩ : BufTy).Contents (Elt F)),
    unary main_arg9 main_v50 (broadcastInDim S1x64 ![1] bcast_S64_S1x64_1 : (⟨S64, .f32⟩ : BufTy).Contents (Elt F) → (⟨S1x64, .f32⟩ : BufTy).Contents (Elt F)),
    unary main_v50 main_v51 (broadcastInDim S20000x64 ![0, 1] bcast_S1x64_S20000x64_0_1 : (⟨S1x64, .f32⟩ : BufTy).Contents (Elt F) → (⟨S20000x64, .f32⟩ : BufTy).Contents (Elt F)),
    binary main_v49 main_v51 main_v52 (addf : (⟨S20000x64, .f32⟩ : BufTy).Contents (Elt F) → (⟨S20000x64, .f32⟩ : BufTy).Contents (Elt F) → (⟨S20000x64, .f32⟩ : BufTy).Contents (Elt F)),
    TRef.nullary (TRef.of (T := ⟨S_, .f32⟩) main_call2_cst) (constant S_ .f32 0xFF800000#32),
    TRef.binary (TRef.of (T := ⟨S20000x64, .f32⟩) main_v52) (TRef.of (T := ⟨S_, .f32⟩) main_call2_cst) (TRef.of (T := ⟨S20000, .f32⟩) main_call2_v0) (fun x v => Host.reduce FloatOps.maximumf x v reducesTo_S20000x64_S20000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S20000, .f32⟩) main_call2_v1) (broadcastInDim S20000 ![] bcast_S_S20000),
    TRef.binary (TRef.of (T := ⟨S20000, .f32⟩) main_call2_v1) (TRef.of (T := ⟨S20000, .f32⟩) main_call2_v0) (TRef.of (T := ⟨S20000, .f32⟩) main_call2_v2) maximumf,
    TRef.unary (TRef.of (T := ⟨S20000, .f32⟩) main_call2_v2) (TRef.of (T := ⟨S20000x1, .f32⟩) main_call2_v3) (broadcastInDim S20000x1 ![0] bcast_S20000_S20000x1_0),
    TRef.unary (TRef.of (T := ⟨S20000x1, .f32⟩) main_call2_v3) (TRef.of (T := ⟨S20000x64, .f32⟩) main_call2_v4) (broadcastInDim S20000x64 ![0, 1] bcast_S20000x1_S20000x64_0_1),
    TRef.binary (TRef.of (T := ⟨S20000x64, .f32⟩) main_v52) (TRef.of (T := ⟨S20000x64, .f32⟩) main_call2_v4) (TRef.of (T := ⟨S20000x64, .f32⟩) main_call2_v5) subf,
    TRef.unary (TRef.of (T := ⟨S20000x64, .f32⟩) main_call2_v5) (TRef.of (T := ⟨S20000x64, .f32⟩) main_call2_v6) Host.exp,
    TRef.nullary (TRef.of (T := ⟨S_, .f32⟩) main_call2_cst_1) (constant S_ .f32 0x00000000#32),
    TRef.binary (TRef.of (T := ⟨S20000x64, .f32⟩) main_call2_v6) (TRef.of (T := ⟨S_, .f32⟩) main_call2_cst_1) (TRef.of (T := ⟨S20000, .f32⟩) main_call2_v7) (fun x v => Host.reduceAdd x v reducesTo_S20000x64_S20000_d1 h_S_),
    TRef.unary (TRef.of (T := ⟨S20000, .f32⟩) main_call2_v7) (TRef.of (T := ⟨S20000x1, .f32⟩) main_call2_v8) (broadcastInDim S20000x1 ![0] bcast_S20000_S20000x1_0),
    TRef.unary (TRef.of (T := ⟨S20000x1, .f32⟩) main_call2_v8) (TRef.of (T := ⟨S20000x1, .f32⟩) main_call2_v9) Host.log,
    TRef.unary (TRef.of (T := ⟨S20000x1, .f32⟩) main_call2_v9) (TRef.of (T := ⟨S20000x64, .f32⟩) main_call2_v10) (broadcastInDim S20000x64 ![0, 1] bcast_S20000x1_S20000x64_0_1),
    TRef.binary (TRef.of (T := ⟨S20000x64, .f32⟩) main_call2_v5) (TRef.of (T := ⟨S20000x64, .f32⟩) main_call2_v10) (TRef.of (T := ⟨S20000x64, .f32⟩) main_v53) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The list is the three contractions with the three stretches after them. -/
theorem ops_cut : (ops : List (HloOp τ sig (Elt F))) = dense0 :: (host1 ++ dense1 :: (host2 ++ dense2 :: host3)) := rfl

/-- Every weakly fair execution of the reference terminates, with every buffer at the fold of the operations' results
    over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- Operations run one list after another. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## A contraction read at an index -/

/-- The left operand of the 20000 × 512 by 512 × 512 contraction is read at the output's row … -/
theorem wide_lhs_row (i : S20000x512.Idx) (κ : dot_S20000x512_S512x512_S20000x512_1_0_0_1_n_n.contr.Idx) : (dot_S20000x512_S512x512_S20000x512_1_0_0_1_n_n.lhsIdx i κ 0).val = (i 0).val := by
  unfold DotDims.lhsIdx
  rw [dif_neg (show ¬(0 : Fin S20000x512.rank) ∈ dot_S20000x512_S512x512_S20000x512_1_0_0_1_n_n.lhsBatch by decide), dif_pos (show (0 : Fin S20000x512.rank) ∈ dot_S20000x512_S512x512_S20000x512_1_0_0_1_n_n.lhsNonContracting by decide)]
  rfl
/-- … and at the inner index; -/
theorem wide_lhs_inner (i : S20000x512.Idx) (κ : dot_S20000x512_S512x512_S20000x512_1_0_0_1_n_n.contr.Idx) : (dot_S20000x512_S512x512_S20000x512_1_0_0_1_n_n.lhsIdx i κ 1).val = (κ ⟨0, by decide⟩).val :=
  dot_S20000x512_S512x512_S20000x512_1_0_0_1_n_n.lhsIdx_val_of_single rfl i κ
/-- the right operand at the inner index … -/
theorem wide_rhs_inner (i : S20000x512.Idx) (κ : dot_S20000x512_S512x512_S20000x512_1_0_0_1_n_n.contr.Idx) : (dot_S20000x512_S512x512_S20000x512_1_0_0_1_n_n.rhsIdx i κ 0).val = (κ ⟨0, by decide⟩).val :=
  dot_S20000x512_S512x512_S20000x512_1_0_0_1_n_n.rhsIdx_val_of_single rfl i κ
/-- … and at the output's column. -/
theorem wide_rhs_col (i : S20000x512.Idx) (κ : dot_S20000x512_S512x512_S20000x512_1_0_0_1_n_n.contr.Idx) : (dot_S20000x512_S512x512_S20000x512_1_0_0_1_n_n.rhsIdx i κ 1).val = (i 1).val := by
  unfold DotDims.rhsIdx
  rw [dif_neg (show ¬(1 : Fin S512x512.rank) ∈ dot_S20000x512_S512x512_S20000x512_1_0_0_1_n_n.rhsBatch by decide), dif_pos (show (1 : Fin S512x512.rank) ∈ dot_S20000x512_S512x512_S20000x512_1_0_0_1_n_n.rhsNonContracting by decide)]
  rfl

/-- On the extended reals the host's contraction of a 20000 × 512 table with a 512 × 512 table is their product, entry by
    entry: no accumulator, and the sum over the one contracted axis re-indexed by `Fin 512`. -/
theorem wide_eq_prod (l : FVec Ideal S20000x512 .f32) (r : FVec Ideal S512x512 .f32) :
    Host.dotGeneral (F := Ideal) dot_S20000x512_S512x512_S20000x512_1_0_0_1_n_n none l r = prod (M := 20000) (K := 512) (N := 512) l r := by
  funext i
  rw [prod_apply]
  simp only [Host.dotGeneral]
  rw [Ideal.dotGeneral_apply, ← Equiv.sum_comp (contrEquiv1 dot_S20000x512_S512x512_S20000x512_1_0_0_1_n_n 512 rfl rfl).symm]
  refine Finset.sum_congr rfl fun k _ => ?_
  have hk := contrEquiv1_symm_val dot_S20000x512_S512x512_S20000x512_1_0_0_1_n_n 512 rfl rfl k
  have el : dot_S20000x512_S512x512_S20000x512_1_0_0_1_n_n.lhsIdx i ((contrEquiv1 dot_S20000x512_S512x512_S20000x512_1_0_0_1_n_n 512 rfl rfl).symm k) = ix2 ⟨(i 0).val, idx2_lt0 i⟩ k := funext fun a => Fin.ext (by
    match a with
    | ⟨0, _⟩ => exact wide_lhs_row _ _
    | ⟨1, _⟩ => exact (wide_lhs_inner _ _).trans hk)
  have er : dot_S20000x512_S512x512_S20000x512_1_0_0_1_n_n.rhsIdx i ((contrEquiv1 dot_S20000x512_S512x512_S20000x512_1_0_0_1_n_n 512 rfl rfl).symm k) = ix2 k ⟨(i 1).val, idx2_lt1 i⟩ := funext fun a => Fin.ext (by
    match a with
    | ⟨0, _⟩ => exact (wide_rhs_inner _ _).trans hk
    | ⟨1, _⟩ => exact wide_rhs_col _ _)
  rw [el, er]

/-- The left operand of the 20000 × 512 by 512 × 64 contraction is read at the output's row … -/
theorem narrow_lhs_row (i : S20000x64.Idx) (κ : dot_S20000x512_S512x64_S20000x64_1_0_0_1_n_n.contr.Idx) : (dot_S20000x512_S512x64_S20000x64_1_0_0_1_n_n.lhsIdx i κ 0).val = (i 0).val := by
  unfold DotDims.lhsIdx
  rw [dif_neg (show ¬(0 : Fin S20000x512.rank) ∈ dot_S20000x512_S512x64_S20000x64_1_0_0_1_n_n.lhsBatch by decide), dif_pos (show (0 : Fin S20000x512.rank) ∈ dot_S20000x512_S512x64_S20000x64_1_0_0_1_n_n.lhsNonContracting by decide)]
  rfl
/-- … and at the inner index; -/
theorem narrow_lhs_inner (i : S20000x64.Idx) (κ : dot_S20000x512_S512x64_S20000x64_1_0_0_1_n_n.contr.Idx) : (dot_S20000x512_S512x64_S20000x64_1_0_0_1_n_n.lhsIdx i κ 1).val = (κ ⟨0, by decide⟩).val :=
  dot_S20000x512_S512x64_S20000x64_1_0_0_1_n_n.lhsIdx_val_of_single rfl i κ
/-- the right operand at the inner index … -/
theorem narrow_rhs_inner (i : S20000x64.Idx) (κ : dot_S20000x512_S512x64_S20000x64_1_0_0_1_n_n.contr.Idx) : (dot_S20000x512_S512x64_S20000x64_1_0_0_1_n_n.rhsIdx i κ 0).val = (κ ⟨0, by decide⟩).val :=
  dot_S20000x512_S512x64_S20000x64_1_0_0_1_n_n.rhsIdx_val_of_single rfl i κ
/-- … and at the output's column. -/
theorem narrow_rhs_col (i : S20000x64.Idx) (κ : dot_S20000x512_S512x64_S20000x64_1_0_0_1_n_n.contr.Idx) : (dot_S20000x512_S512x64_S20000x64_1_0_0_1_n_n.rhsIdx i κ 1).val = (i 1).val := by
  unfold DotDims.rhsIdx
  rw [dif_neg (show ¬(1 : Fin S512x64.rank) ∈ dot_S20000x512_S512x64_S20000x64_1_0_0_1_n_n.rhsBatch by decide), dif_pos (show (1 : Fin S512x64.rank) ∈ dot_S20000x512_S512x64_S20000x64_1_0_0_1_n_n.rhsNonContracting by decide)]
  rfl

/-- On the extended reals the host's contraction of a 20000 × 512 table with a 512 × 64 table is their product, entry by
    entry: no accumulator, and the sum over the one contracted axis re-indexed by `Fin 512`. -/
theorem narrow_eq_prod (l : FVec Ideal S20000x512 .f32) (r : FVec Ideal S512x64 .f32) :
    Host.dotGeneral (F := Ideal) dot_S20000x512_S512x64_S20000x64_1_0_0_1_n_n none l r = prod (M := 20000) (K := 512) (N := 64) l r := by
  funext i
  rw [prod_apply]
  simp only [Host.dotGeneral]
  rw [Ideal.dotGeneral_apply, ← Equiv.sum_comp (contrEquiv1 dot_S20000x512_S512x64_S20000x64_1_0_0_1_n_n 512 rfl rfl).symm]
  refine Finset.sum_congr rfl fun k _ => ?_
  have hk := contrEquiv1_symm_val dot_S20000x512_S512x64_S20000x64_1_0_0_1_n_n 512 rfl rfl k
  have el : dot_S20000x512_S512x64_S20000x64_1_0_0_1_n_n.lhsIdx i ((contrEquiv1 dot_S20000x512_S512x64_S20000x64_1_0_0_1_n_n 512 rfl rfl).symm k) = ix2 ⟨(i 0).val, idx2_lt0 i⟩ k := funext fun a => Fin.ext (by
    match a with
    | ⟨0, _⟩ => exact narrow_lhs_row _ _
    | ⟨1, _⟩ => exact (narrow_lhs_inner _ _).trans hk)
  have er : dot_S20000x512_S512x64_S20000x64_1_0_0_1_n_n.rhsIdx i ((contrEquiv1 dot_S20000x512_S512x64_S20000x64_1_0_0_1_n_n 512 rfl rfl).symm k) = ix2 k ⟨(i 1).val, idx2_lt1 i⟩ := funext fun a => Fin.ext (by
    match a with
    | ⟨0, _⟩ => exact (narrow_rhs_inner _ _).trans hk
    | ⟨1, _⟩ => exact narrow_rhs_col _ _)
  rw [el, er]

end Cert.ReferenceIdeal.HostRun

end
-- ==== Proof.RefFrame.lean ====
/-
  The reference's arguments end as launched.

  None of the reference's 81 host operations writes an argument buffer, so the fold of their results, read at an
  argument, is the launch array. With the run this gives the reference's frame, and its run with the result named by the
  fold and the arguments unchanged.
-/
import proofs.«120037_j78580721648121_1_alg».proof.Proof.RefHost

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem kept_arg0 (m : (ℓ : Loc nD τ sig) → Buf (Elt F) ℓ) (c : Dev nD) :
    after ops (launchContents m c) (Proc.devRef .tc main_arg0) = m ((c.tc : Thread nD τ).loc main_arg0) := by
  after_results_simp <;> rfl

set_option maxRecDepth 8192 in
set_option maxHeartbeats 4000000 in
theorem kept_arg1 (m : (ℓ : Loc nD τ sig) → Buf (Elt F) ℓ) (c : Dev nD) :
    after ops (launchContents m c) (Proc.devRef .tc main_arg1) = m ((c.tc : Thread nD τ).loc main_arg1) := by
  after_results_simp <;> rfl

set_option maxRecDepth 8192 in
set_option maxHeartbeats 4000000 in
theorem kept_arg2 (m : (ℓ : Loc nD τ sig) → Buf (Elt F) ℓ) (c : Dev nD) :
    after ops (launchContents m c) (Proc.devRef .tc main_arg2) = m ((c.tc : Thread nD τ).loc main_arg2) := by
  after_results_simp <;> rfl

set_option maxRecDepth 8192 in
set_option maxHeartbeats 4000000 in
theorem kept_arg3 (m : (ℓ : Loc nD τ sig) → Buf (Elt F) ℓ) (c : Dev nD) :
    after ops (launchContents m c) (Proc.devRef .tc main_arg3) = m ((c.tc : Thread nD τ).loc main_arg3) := by
  after_results_simp <;> rfl

set_option maxRecDepth 8192 in
set_option maxHeartbeats 4000000 in
theorem kept_arg4 (m : (ℓ : Loc nD τ sig) → Buf (Elt F) ℓ) (c : Dev nD) :
    after ops (launchContents m c) (Proc.devRef .tc main_arg4) = m ((c.tc : Thread nD τ).loc main_arg4) := by
  after_results_simp <;> rfl

set_option maxRecDepth 8192 in
set_option maxHeartbeats 4000000 in
theorem kept_arg5 (m : (ℓ : Loc nD τ sig) → Buf (Elt F) ℓ) (c : Dev nD) :
    after ops (launchContents m c) (Proc.devRef .tc main_arg5) = m ((c.tc : Thread nD τ).loc main_arg5) := by
  after_results_simp <;> rfl

set_option maxRecDepth 8192 in
set_option maxHeartbeats 4000000 in
theorem kept_arg6 (m : (ℓ : Loc nD τ sig) → Buf (Elt F) ℓ) (c : Dev nD) :
    after ops (launchContents m c) (Proc.devRef .tc main_arg6) = m ((c.tc : Thread nD τ).loc main_arg6) := by
  after_results_simp <;> rfl

set_option maxRecDepth 8192 in
set_option maxHeartbeats 4000000 in
theorem kept_arg7 (m : (ℓ : Loc nD τ sig) → Buf (Elt F) ℓ) (c : Dev nD) :
    after ops (launchContents m c) (Proc.devRef .tc main_arg7) = m ((c.tc : Thread nD τ).loc main_arg7) := by
  after_results_simp <;> rfl

set_option maxRecDepth 8192 in
set_option maxHeartbeats 4000000 in
theorem kept_arg8 (m : (ℓ : Loc nD τ sig) → Buf (Elt F) ℓ) (c : Dev nD) :
    after ops (launchContents m c) (Proc.devRef .tc main_arg8) = m ((c.tc : Thread nD τ).loc main_arg8) := by
  after_results_simp <;> rfl

set_option maxRecDepth 8192 in
set_option maxHeartbeats 4000000 in
theorem kept_arg9 (m : (ℓ : Loc nD τ sig) → Buf (Elt F) ℓ) (c : Dev nD) :
    after ops (launchContents m c) (Proc.devRef .tc main_arg9) = m ((c.tc : Thread nD τ).loc main_arg9) := by
  after_results_simp <;> rfl

/-- Every weakly fair execution of the reference terminates, its result at the fold of the operations read at the result
    buffer, its arguments as launched. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = after ops (launchContents m c) (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨h c main_v53,
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c)⟩)
    (run m ρ)

/-- The frame: the same run with the result dropped. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => (h c).2) (run_result m ρ)

end Cert.ReferenceIdeal.HostRun

end
-- ==== Proof.Region0.lean ====
/-
  The first dense layer of the kernel: the array its row-blocked product leaves is the whole product.

  The pallas_call walks ten grid points. At point t it fetches rows 2000·t … 2000·t + 1999 of the left table (all 512
  columns) and the whole 512 × 512 right table, stores into its 2000 × 512 staging block the contraction of the two over
  the inner index (both operands first changed to a narrower float format, which is the identity on the extended reals;
  the accumulator is the zero splat), and writes that block back to rows 2000·t … of the result. Entry (p, q) of the
  block is therefore Σ_k a(2000·t + p, k) · w(k, q), which is entry (2000·t + p, q) of the whole product; the ten row
  blocks tile the 20000 rows, so the array ends holding the product everywhere. Stated for any contents `V` the region
  is entered with.
-/
import proofs.«120037_j78580721648121_1_alg».proof.Proof.Gen.KernelIdeal.Frame
import proofs.«120037_j78580721648121_1_alg».proof.Proof.MatProd
import Idealize.ShloMosaic.Lib.Pipeline.Value
import Idealize.ShloMosaic.Lib.ValueIdx
import Idealize.ShloMosaic.PureOps.Ideal.Laws

noncomputable section

namespace Cert.KernelIdeal.Layer0

open Cert.KernelIdeal Cert.KernelIdeal.Gen Idealize.ShloMosaic Idealize.ShloMosaic.TcCoe Idealize.SL.Sem
open Idealize.ShloMosaic.ValueIdx Cert.Gcn

/-- The body's loads and its store all start at the origin of their buffers. -/
theorem origin : (![0, 0] : Fin 2 → Nat) = fun _ => 0 := funext fun a => by fin_cases a <;> rfl

/-! ## The contraction's operand indices -/

/-- The left operand is read at the output's row … -/
theorem lhs_row (j : S2000x512.Idx) (κ : dot_S2000x512_S512x512_S2000x512_1_0_0_1_n_n.contr.Idx) :
    (dot_S2000x512_S512x512_S2000x512_1_0_0_1_n_n.lhsIdx j κ 0).val = (j 0).val := by
  unfold DotDims.lhsIdx
  rw [dif_neg (show ¬(0 : Fin S2000x512.rank) ∈ dot_S2000x512_S512x512_S2000x512_1_0_0_1_n_n.lhsBatch by decide),
    dif_pos (show (0 : Fin S2000x512.rank) ∈ dot_S2000x512_S512x512_S2000x512_1_0_0_1_n_n.lhsNonContracting by decide)]
  rfl
/-- … and at the inner index; -/
theorem lhs_inner (j : S2000x512.Idx) (κ : dot_S2000x512_S512x512_S2000x512_1_0_0_1_n_n.contr.Idx) :
    (dot_S2000x512_S512x512_S2000x512_1_0_0_1_n_n.lhsIdx j κ 1).val = (κ ⟨0, by decide⟩).val :=
  dot_S2000x512_S512x512_S2000x512_1_0_0_1_n_n.lhsIdx_val_of_single rfl j κ
/-- the right operand at the inner index … -/
theorem rhs_inner (j : S2000x512.Idx) (κ : dot_S2000x512_S512x512_S2000x512_1_0_0_1_n_n.contr.Idx) :
    (dot_S2000x512_S512x512_S2000x512_1_0_0_1_n_n.rhsIdx j κ 0).val = (κ ⟨0, by decide⟩).val :=
  dot_S2000x512_S512x512_S2000x512_1_0_0_1_n_n.rhsIdx_val_of_single rfl j κ
/-- … and at the output's column. -/
theorem rhs_col (j : S2000x512.Idx) (κ : dot_S2000x512_S512x512_S2000x512_1_0_0_1_n_n.contr.Idx) :
    (dot_S2000x512_S512x512_S2000x512_1_0_0_1_n_n.rhsIdx j κ 1).val = (j 1).val := by
  unfold DotDims.rhsIdx
  rw [dif_neg (show ¬(1 : Fin S512x512.rank) ∈ dot_S2000x512_S512x512_S2000x512_1_0_0_1_n_n.rhsBatch by decide),
    dif_pos (show (1 : Fin S512x512.rank) ∈ dot_S2000x512_S512x512_S2000x512_1_0_0_1_n_n.rhsNonContracting by decide)]
  rfl

/-! ## One block -/

/-- What the body stores, read at (p, q): the sum over the inner index of the left block's row p against the right
    table's column q. The change of float format reads through; the zero accumulator adds nothing. -/
theorem block_entry (x0 : Vec Ideal S2000x512 .f32) (x1 : Vec Ideal S512x512 .f32) (p : Fin 2000) (q : Fin 512) :
    k0_pay1 x0 x1 (ix2 p q) = entry (M := 2000) (K := 512) (N := 512) x0 x1 p q := by
  unfold k0_pay1 entry
  refine (Ideal.matmul_constant_zero_apply dot_S2000x512_S512x512_S2000x512_1_0_0_1_n_n none _ _ (ix2 p q)).trans ?_
  rw [← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q)
      ((contrEquiv1 dot_S2000x512_S512x512_S2000x512_1_0_0_1_n_n 512 rfl rfl).symm k) = ix2 p k := funext fun a => Fin.ext (by
    match a with
    | ⟨0, _⟩ => exact lhs_row _ _
    | ⟨1, _⟩ => exact (lhs_inner _ _).trans hk)
  have er : dot_S2000x512_S512x512_S2000x512_1_0_0_1_n_n.rhsIdx (ix2 p q)
      ((contrEquiv1 dot_S2000x512_S512x512_S2000x512_1_0_0_1_n_n 512 rfl rfl).symm k) = ix2 k q := funext fun a => Fin.ext (by
    match a with
    | ⟨0, _⟩ => exact (rhs_inner _ _).trans hk
    | ⟨1, _⟩ => exact rhs_col _ _)
  rw [el, er]
  rfl

/-! ## From the blocks to the array -/

variable (V : (c : Dev nD) → (b : Ref sig .tc) → Buf (Elt Ideal) ((c : Thread nD τ).loc b))

/-- The printed index maps over the grid: the left table's block moves down with the result's, one block per point; the
    right table's block and every column block stay at the origin. -/
theorem index_maps : ∀ t : Fin cfg0.N,
      win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some point's. -/
theorem row_block_onto : ∀ b : Fin 10, ∃ t : Fin cfg0.N, win0_2.index t = ![b.val, 0] :=
  (by decide +kernel : ∀ b : Fin 10, ∃ t : Fin grid0.N, win0_2.index t = ![b.val, 0])

/-- What point `t` writes back is block `t` of the product of the two tables as the region finds them. -/
theorem flushed_eq (c : Dev nD) (t : Fin cfg0.N) :
    (dat0 V c).flushed 2 t
      = ((cfg0.win 2).blk t).view.read (Elt Ideal) (prod (M := 20000) (K := 512) (N := 512) (V c main_arg0) (V c main_arg4)) := by
  show (cfg0.win 2).cut (grid0.coords t) ((dat0 V c).after 2 t) = _
  rw [after0_2]
  unfold out0_2
  rw [View.canon_unit_zero origin]
  simp only [View.ld_unit_zero (S := S2000x512) origin, View.ld_unit_zero (S := S512x512) origin]
  obtain ⟨e0, e1, e2, e3, e4, e5⟩ := index_maps t
  refine funext fun (j : S2000x512.Idx) => ?_
  obtain ⟨p, q, rfl⟩ : ∃ (p : Fin 2000) (q : Fin 512), j = ix2 p q := ⟨j 0, j 1, eq_ix2 j⟩
  show k0_pay1 (iblk0 V c 0 t) (iblk0 V c 1 t) (ix2 p q)
    = prod (M := 20000) (K := 512) (N := 512) (V c main_arg0) (V c main_arg4) (((cfg0.win 2).blk t).view.emb (ix2 p q))
  refine (block_entry (iblk0 V c 0 t) (iblk0 V c 1 t) p q).trans ?_
  exact entry_of_rows (M := 20000) (M' := 2000) (K := 512) (N := 512) (V c main_arg0) (V c main_arg4)
    ((cfg0.win 0).blk t).view.emb ((cfg0.win 1).blk t).view.emb (((cfg0.win 2).blk t).view.emb (ix2 p q)) p q
    (fun k => by
      funext a; apply Fin.ext
      match a with
      | ⟨0, _⟩ => show win0_0.index t (0 : Fin 2) * 2000 + 1 * p.val = win0_2.index t (0 : Fin 2) * 2000 + 1 * p.val; omega
      | ⟨1, _⟩ => show win0_0.index t (1 : Fin 2) * 512 + 1 * k.val = k.val; omega)
    (fun k => by
      funext a; apply Fin.ext
      match a with
      | ⟨0, _⟩ => show win0_1.index t (0 : Fin 2) * 512 + 1 * k.val = k.val; omega
      | ⟨1, _⟩ => show win0_1.index t (1 : Fin 2) * 512 + 1 * q.val = win0_2.index t (1 : Fin 2) * 512 + 1 * q.val; omega)

/-- An index of the result is in point `t`'s block iff each coordinate is in the block's range on its axis. -/
theorem mem_block (t : Fin cfg0.N) (i : S20000x512.Idx) :
    i ∈ ((cfg0.win 2).blk t).view.set ↔ ∀ a : Fin 2, win0_2.index t a * S2000x512.size a ≤ (i a).val
      ∧ (i a).val < win0_2.index t a * S2000x512.size a + S2000x512.size a := by
  show i ∈ ((View.whole main_v0).slice (win0_2.rect t)).set ↔ _
  rw [View.set_slice_whole, Rect.mem_set_unit]
  exact Iff.rfl

/-- Row r lies in the block of the point whose row block is r / 2000: the blocks cover the array. -/
theorem covered (i : S20000x512.Idx) :
    ∃ t : Fin cfg0.N, (cfg0.win 2).flush t = true ∧ i ∈ ((cfg0.win 2).blk t).view.set := by
  have hi0 : (i 0).val < 20000 := (i 0).isLt
  have hi1 : (i 1).val < 512 := (i 1).isLt
  obtain ⟨t, ht⟩ := row_block_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- The result array after the region: the product of the two tables the region was entered with. -/
theorem array_eq (c : Dev nD) :
    (dat0 V c).arrAt 2 cfg0.N = prod (M := 20000) (K := 512) (N := 512) (V c main_arg0) (V c main_arg4) :=
  (dat0 V c).arrAt_eq_of_cover 2 _ (fun t _ => flushed_eq V c t) covered

end Cert.KernelIdeal.Layer0

end
-- ==== Proof.Region1.lean ====
/-
  The second dense layer of the kernel: again the array its row-blocked product leaves is the whole product.

  The pallas_call has the shapes and the index maps of the first layer's; its left table is the first layer's
  activations and its right table the second weight table. Its body differs from the first layer's only by a change of
  shape to the same shape, which is the identity, so a block's entry is the same sum and the same cover argument gives
  the whole array.
-/
import proofs.«120037_j78580721648121_1_alg».proof.Proof.Region0

noncomputable section

namespace Cert.KernelIdeal.Layer1

open Cert.KernelIdeal Cert.KernelIdeal.Gen Idealize.ShloMosaic Idealize.ShloMosaic.TcCoe Idealize.SL.Sem
open Idealize.ShloMosaic.ValueIdx Cert.Gcn
open Cert.KernelIdeal.Layer0 (origin)

/-- What this body stores is what the first layer's body stores of the same two blocks: the change of shape between
    them is to the same shape. -/
theorem payload_eq (x0 : Vec Ideal S2000x512 .f32) (x1 : Vec Ideal S512x512 .f32) : k1_pay1 x0 x1 = k0_pay1 x0 x1 := by
  unfold k1_pay1 k0_pay1
  rw [shapeCast_self]

/-- What the body stores, read at (p, q): the sum over the inner index of the left block's row p against the right
    table's column q. -/
theorem block_entry (x0 : Vec Ideal S2000x512 .f32) (x1 : Vec Ideal S512x512 .f32) (p : Fin 2000) (q : Fin 512) :
    k1_pay1 x0 x1 (ix2 p q) = entry (M := 2000) (K := 512) (N := 512) x0 x1 p q :=
  (congrFun (payload_eq x0 x1) (ix2 p q)).trans (Cert.KernelIdeal.Layer0.block_entry x0 x1 p q)

/-! ## From the blocks to the array -/

variable (V : (c : Dev nD) → (b : Ref sig .tc) → Buf (Elt Ideal) ((c : Thread nD τ).loc b))

/-- The printed index maps over the grid: the left table's block moves down with the result's, one block per point; the
    right table's block and every column block stay at the origin. -/
theorem index_maps : ∀ t : Fin cfg1.N,
      win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the ten row blocks is some point's. -/
theorem row_block_onto : ∀ b : Fin 10, ∃ t : Fin cfg1.N, win1_2.index t = ![b.val, 0] :=
  (by decide +kernel : ∀ b : Fin 10, ∃ t : Fin grid1.N, win1_2.index t = ![b.val, 0])

/-- What point `t` writes back is block `t` of the product of the two tables as the region finds them. -/
theorem flushed_eq (c : Dev nD) (t : Fin cfg1.N) :
    (dat1 V c).flushed 2 t
      = ((cfg1.win 2).blk t).view.read (Elt Ideal) (prod (M := 20000) (K := 512) (N := 512) (V c main_v17) (V c main_arg6)) := by
  show (cfg1.win 2).cut (grid1.coords t) ((dat1 V c).after 2 t) = _
  rw [after1_2]
  unfold out1_2
  rw [View.canon_unit_zero origin]
  simp only [View.ld_unit_zero (S := S2000x512) origin, View.ld_unit_zero (S := S512x512) origin]
  obtain ⟨e0, e1, e2, e3, e4, e5⟩ := index_maps t
  refine funext fun (j : S2000x512.Idx) => ?_
  obtain ⟨p, q, rfl⟩ : ∃ (p : Fin 2000) (q : Fin 512), j = ix2 p q := ⟨j 0, j 1, eq_ix2 j⟩
  show k1_pay1 (iblk1 V c 0 t) (iblk1 V c 1 t) (ix2 p q)
    = prod (M := 20000) (K := 512) (N := 512) (V c main_v17) (V c main_arg6) (((cfg1.win 2).blk t).view.emb (ix2 p q))
  refine (block_entry (iblk1 V c 0 t) (iblk1 V c 1 t) p q).trans ?_
  exact entry_of_rows (M := 20000) (M' := 2000) (K := 512) (N := 512) (V c main_v17) (V c main_arg6)
    ((cfg1.win 0).blk t).view.emb ((cfg1.win 1).blk t).view.emb (((cfg1.win 2).blk t).view.emb (ix2 p q)) p q
    (fun k => by
      funext a; apply Fin.ext
      match a with
      | ⟨0, _⟩ => show win1_0.index t (0 : Fin 2) * 2000 + 1 * p.val = win1_2.index t (0 : Fin 2) * 2000 + 1 * p.val; omega
      | ⟨1, _⟩ => show win1_0.index t (1 : Fin 2) * 512 + 1 * k.val = k.val; omega)
    (fun k => by
      funext a; apply Fin.ext
      match a with
      | ⟨0, _⟩ => show win1_1.index t (0 : Fin 2) * 512 + 1 * k.val = k.val; omega
      | ⟨1, _⟩ => show win1_1.index t (1 : Fin 2) * 512 + 1 * q.val = win1_2.index t (1 : Fin 2) * 512 + 1 * q.val; omega)

/-- An index of the result is in point `t`'s block iff each coordinate is in the block's range on its axis. -/
theorem mem_block (t : Fin cfg1.N) (i : S20000x512.Idx) :
    i ∈ ((cfg1.win 2).blk t).view.set ↔ ∀ a : Fin 2, win1_2.index t a * S2000x512.size a ≤ (i a).val
      ∧ (i a).val < win1_2.index t a * S2000x512.size a + S2000x512.size a := by
  show i ∈ ((View.whole main_v18).slice (win1_2.rect t)).set ↔ _
  rw [View.set_slice_whole, Rect.mem_set_unit]
  exact Iff.rfl

/-- Row r lies in the block of the point whose row block is r / 2000: the blocks cover the array. -/
theorem covered (i : S20000x512.Idx) :
    ∃ t : Fin cfg1.N, (cfg1.win 2).flush t = true ∧ i ∈ ((cfg1.win 2).blk t).view.set := by
  have hi0 : (i 0).val < 20000 := (i 0).isLt
  have hi1 : (i 1).val < 512 := (i 1).isLt
  obtain ⟨t, ht⟩ := row_block_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 512 ≤ (i 1).val ∧ (i 1).val < win1_2.index t (1 : Fin 2) * 512 + 512; omega

/-- The result array after the region: the product of the two tables the region was entered with. -/
theorem array_eq (c : Dev nD) :
    (dat1 V c).arrAt 2 cfg1.N = prod (M := 20000) (K := 512) (N := 512) (V c main_v17) (V c main_arg6) :=
  (dat1 V c).arrAt_eq_of_cover 2 _ (fun t _ => flushed_eq V c t) covered

end Cert.KernelIdeal.Layer1

end
-- ==== Proof.Region2.lean ====
/-
  The third dense layer of the kernel: the array its row-blocked product leaves is the whole product.

  As in the first two layers, with a 512 × 64 right table: at point t the body stores into its 2000 × 64 staging block the
  contraction of rows 2000·t … 2000·t + 1999 of the left table (the second layer's activations, through a change of shape
  to the same shape) with the whole right table over the inner index, the change of float format being the identity on
  the extended reals and the accumulator the zero splat; the ten row blocks tile the 20000 × 64 result.
-/
import proofs.«120037_j78580721648121_1_alg».proof.Proof.Gen.KernelIdeal.Frame
import proofs.«120037_j78580721648121_1_alg».proof.Proof.MatProd
import Idealize.ShloMosaic.Lib.Pipeline.Value
import Idealize.ShloMosaic.Lib.ValueIdx
import Idealize.ShloMosaic.PureOps.Ideal.Laws

noncomputable section

namespace Cert.KernelIdeal.Layer2

open Cert.KernelIdeal Cert.KernelIdeal.Gen Idealize.ShloMosaic Idealize.ShloMosaic.TcCoe Idealize.SL.Sem
open Idealize.ShloMosaic.ValueIdx Cert.Gcn

/-- The body's loads and its store all start at the origin of their buffers. -/
theorem origin : (![0, 0] : Fin 2 → Nat) = fun _ => 0 := funext fun a => by fin_cases a <;> rfl

/-! ## The contraction's operand indices -/

/-- The left operand is read at the output's row … -/
theorem lhs_row (j : S2000x64.Idx) (κ : dot_S2000x512_S512x64_S2000x64_1_0_0_1_n_n.contr.Idx) :
    (dot_S2000x512_S512x64_S2000x64_1_0_0_1_n_n.lhsIdx j κ 0).val = (j 0).val := by
  unfold DotDims.lhsIdx
  rw [dif_neg (show ¬(0 : Fin S2000x512.rank) ∈ dot_S2000x512_S512x64_S2000x64_1_0_0_1_n_n.lhsBatch by decide),
    dif_pos (show (0 : Fin S2000x512.rank) ∈ dot_S2000x512_S512x64_S2000x64_1_0_0_1_n_n.lhsNonContracting by decide)]
  rfl
/-- … and at the inner index; -/
theorem lhs_inner (j : S2000x64.Idx) (κ : dot_S2000x512_S512x64_S2000x64_1_0_0_1_n_n.contr.Idx) :
    (dot_S2000x512_S512x64_S2000x64_1_0_0_1_n_n.lhsIdx j κ 1).val = (κ ⟨0, by decide⟩).val :=
  dot_S2000x512_S512x64_S2000x64_1_0_0_1_n_n.lhsIdx_val_of_single rfl j κ
/-- the right operand at the inner index … -/
theorem rhs_inner (j : S2000x64.Idx) (κ : dot_S2000x512_S512x64_S2000x64_1_0_0_1_n_n.contr.Idx) :
    (dot_S2000x512_S512x64_S2000x64_1_0_0_1_n_n.rhsIdx j κ 0).val = (κ ⟨0, by decide⟩).val :=
  dot_S2000x512_S512x64_S2000x64_1_0_0_1_n_n.rhsIdx_val_of_single rfl j κ
/-- … and at the output's column. -/
theorem rhs_col (j : S2000x64.Idx) (κ : dot_S2000x512_S512x64_S2000x64_1_0_0_1_n_n.contr.Idx) :
    (dot_S2000x512_S512x64_S2000x64_1_0_0_1_n_n.rhsIdx j κ 1).val = (j 1).val := by
  unfold DotDims.rhsIdx
  rw [dif_neg (show ¬(1 : Fin S512x64.rank) ∈ dot_S2000x512_S512x64_S2000x64_1_0_0_1_n_n.rhsBatch by decide),
    dif_pos (show (1 : Fin S512x64.rank) ∈ dot_S2000x512_S512x64_S2000x64_1_0_0_1_n_n.rhsNonContracting by decide)]
  rfl

/-! ## One block -/

/-- What the body stores, read at (p, q): the sum over the inner index of the left block's row p against the right
    table's column q. The change of float format reads through; the zero accumulator adds nothing. -/
theorem block_entry (x0 : Vec Ideal S2000x512 .f32) (x1 : Vec Ideal S512x64 .f32) (p : Fin 2000) (q : Fin 64) :
    k2_pay1 x0 x1 (ix2 p q) = entry (M := 2000) (K := 512) (N := 64) x0 x1 p q := by
  unfold k2_pay1 entry
  rw [shapeCast_self]
  refine (Ideal.matmul_constant_zero_apply dot_S2000x512_S512x64_S2000x64_1_0_0_1_n_n none _ _ (ix2 p q)).trans ?_
  rw [← Equiv.sum_comp (contrEquiv1 dot_S2000x512_S512x64_S2000x64_1_0_0_1_n_n 512 rfl rfl).symm]
  refine Finset.sum_congr rfl fun k _ => ?_
  have hk := contrEquiv1_symm_val dot_S2000x512_S512x64_S2000x64_1_0_0_1_n_n 512 rfl rfl k
  have el : dot_S2000x512_S512x64_S2000x64_1_0_0_1_n_n.lhsIdx (ix2 p q)
      ((contrEquiv1 dot_S2000x512_S512x64_S2000x64_1_0_0_1_n_n 512 rfl rfl).symm k) = ix2 p k := funext fun a => Fin.ext (by
    match a with
    | ⟨0, _⟩ => exact lhs_row _ _
    | ⟨1, _⟩ => exact (lhs_inner _ _).trans hk)
  have er : dot_S2000x512_S512x64_S2000x64_1_0_0_1_n_n.rhsIdx (ix2 p q)
      ((contrEquiv1 dot_S2000x512_S512x64_S2000x64_1_0_0_1_n_n 512 rfl rfl).symm k) = ix2 k q := funext fun a => Fin.ext (by
    match a with
    | ⟨0, _⟩ => exact (rhs_inner _ _).trans hk
    | ⟨1, _⟩ => exact rhs_col _ _)
  rw [el, er]
  rfl

/-! ## From the blocks to the array -/

variable (V : (c : Dev nD) → (b : Ref sig .tc) → Buf (Elt Ideal) ((c : Thread nD τ).loc b))

/-- The printed index maps over the grid: the left table's block moves down with the result's, one block per point; the
    right table's block and every column block stay at the origin. -/
theorem index_maps : ∀ t : Fin cfg2.N,
      win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row blocks is some point's. -/
theorem row_block_onto : ∀ b : Fin 10, ∃ t : Fin cfg2.N, win2_2.index t = ![b.val, 0] :=
  (by decide +kernel : ∀ b : Fin 10, ∃ t : Fin grid2.N, win2_2.index t = ![b.val, 0])

/-- What point `t` writes back is block `t` of the product of the two tables as the region finds them. -/
theorem flushed_eq (c : Dev nD) (t : Fin cfg2.N) :
    (dat2 V c).flushed 2 t
      = ((cfg2.win 2).blk t).view.read (Elt Ideal) (prod (M := 20000) (K := 512) (N := 64) (V c main_v35) (V c main_arg8)) := by
  show (cfg2.win 2).cut (grid2.coords t) ((dat2 V c).after 2 t) = _
  rw [after2_2]
  unfold out2_2
  rw [View.canon_unit_zero origin]
  simp only [View.ld_unit_zero (S := S2000x512) origin, View.ld_unit_zero (S := S512x64) origin]
  obtain ⟨e0, e1, e2, e3, e4, e5⟩ := index_maps t
  refine funext fun (j : S2000x64.Idx) => ?_
  obtain ⟨p, q, rfl⟩ : ∃ (p : Fin 2000) (q : Fin 64), j = ix2 p q := ⟨j 0, j 1, eq_ix2 j⟩
  show k2_pay1 (iblk2 V c 0 t) (iblk2 V c 1 t) (ix2 p q)
    = prod (M := 20000) (K := 512) (N := 64) (V c main_v35) (V c main_arg8) (((cfg2.win 2).blk t).view.emb (ix2 p q))
  refine (block_entry (iblk2 V c 0 t) (iblk2 V c 1 t) p q).trans ?_
  exact entry_of_rows (M := 20000) (M' := 2000) (K := 512) (N := 64) (V c main_v35) (V c main_arg8)
    ((cfg2.win 0).blk t).view.emb ((cfg2.win 1).blk t).view.emb (((cfg2.win 2).blk t).view.emb (ix2 p q)) p q
    (fun k => by
      funext a; apply Fin.ext
      match a with
      | ⟨0, _⟩ => show win2_0.index t (0 : Fin 2) * 2000 + 1 * p.val = win2_2.index t (0 : Fin 2) * 2000 + 1 * p.val; omega
      | ⟨1, _⟩ => show win2_0.index t (1 : Fin 2) * 512 + 1 * k.val = k.val; omega)
    (fun k => by
      funext a; apply Fin.ext
      match a with
      | ⟨0, _⟩ => show win2_1.index t (0 : Fin 2) * 512 + 1 * k.val = k.val; omega
      | ⟨1, _⟩ => show win2_1.index t (1 : Fin 2) * 64 + 1 * q.val = win2_2.index t (1 : Fin 2) * 64 + 1 * q.val; omega)

/-- An index of the result is in point `t`'s block iff each coordinate is in the block's range on its axis. -/
theorem mem_block (t : Fin cfg2.N) (i : S20000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v36).slice (win2_2.rect t)).set ↔ _
  rw [View.set_slice_whole, Rect.mem_set_unit]
  exact Iff.rfl

/-- Row r lies in the block of the point whose row block is r / 2000: the blocks cover the array. -/
theorem covered (i : S20000x64.Idx) :
    ∃ t : Fin cfg2.N, (cfg2.win 2).flush t = true ∧ i ∈ ((cfg2.win 2).blk t).view.set := by
  have hi0 : (i 0).val < 20000 := (i 0).isLt
  have hi1 : (i 1).val < 64 := (i 1).isLt
  obtain ⟨t, ht⟩ := row_block_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The result array after the region: the product of the two tables the region was entered with. -/
theorem array_eq (c : Dev nD) :
    (dat2 V c).arrAt 2 cfg2.N = prod (M := 20000) (K := 512) (N := 64) (V c main_v35) (V c main_arg8) :=
  (dat2 V c).arrAt_eq_of_cover 2 _ (fun t _ => flushed_eq V c t) covered

end Cert.KernelIdeal.Layer2

end
-- ==== Proof.Stretches.lean ====
/-
  The two programs apply the same host operations between their dense layers.

  Between two dense layers both programs run the same stretch of host operations on the same inputs: the gather of the
  layer's output rows at the edges' sources, the scaling by the edge weights, the sum at the edges' destinations, the
  bias, and the maximum with zero (after the last layer the row-wise log-softmax instead). A stretch is compared as one
  function of its inputs: if the two programs enter it with equal layer outputs and equal graph and parameter arrays,
  they leave it with equal results. Nothing inside a stretch is opened — no gather, no scatter-add, no exponential.
-/
import proofs.«120037_j78580721648121_1_alg».proof.Proof.Gen.KernelIdeal.Frame
import proofs.«120037_j78580721648121_1_alg».proof.Proof.RefHost

set_option maxRecDepth 16384

noncomputable section

namespace Cert.Gcn.Stretch

open Idealize.ShloMosaic Idealize.ShloMosaic.TcCoe Idealize.SL.Sem Idealize.ShloMosaic.StableHlo

set_option maxHeartbeats 4000000 in
/-- The sparse step after the first dense layer: gather at the sources, weight, sum at the destinations, bias, maximum with
    zero — the same function of the layer's output, the graph and the bias in both programs. -/
theorem first
    (Wk : Valuation Cert.KernelIdeal.τ Cert.KernelIdeal.sig (Elt Ideal)) (Wr : Valuation Cert.ReferenceIdeal.τ Cert.ReferenceIdeal.sig (Elt Ideal))
    (hv : Wk (Proc.devRef .tc Cert.KernelIdeal.main_v0) = Wr (Proc.devRef .tc Cert.ReferenceIdeal.main_v0))
    (h1 : Wk (Proc.devRef .tc Cert.KernelIdeal.main_arg1) = Wr (Proc.devRef .tc Cert.ReferenceIdeal.main_arg1))
    (h2 : Wk (Proc.devRef .tc Cert.KernelIdeal.main_arg2) = Wr (Proc.devRef .tc Cert.ReferenceIdeal.main_arg2))
    (h3 : Wk (Proc.devRef .tc Cert.KernelIdeal.main_arg3) = Wr (Proc.devRef .tc Cert.ReferenceIdeal.main_arg3))
    (hb : Wk (Proc.devRef .tc Cert.KernelIdeal.main_arg5) = Wr (Proc.devRef .tc Cert.ReferenceIdeal.main_arg5)) :
    after Cert.KernelIdeal.Gen.hostOps1_1 (after Cert.KernelIdeal.Gen.hostOps1 Wk) (Proc.devRef .tc Cert.KernelIdeal.main_v17)
      = after Cert.ReferenceIdeal.HostRun.host1 Wr (Proc.devRef .tc Cert.ReferenceIdeal.main_v17) := by
  after_results_simp
  rw [hv, h1, h2, h3, hb]
  rfl

set_option maxHeartbeats 4000000 in
/-- The sparse step after the second dense layer, with the second bias. -/
theorem second
    (Wk : Valuation Cert.KernelIdeal.τ Cert.KernelIdeal.sig (Elt Ideal)) (Wr : Valuation Cert.ReferenceIdeal.τ Cert.ReferenceIdeal.sig (Elt Ideal))
    (hv : Wk (Proc.devRef .tc Cert.KernelIdeal.main_v18) = Wr (Proc.devRef .tc Cert.ReferenceIdeal.main_v18))
    (h1 : Wk (Proc.devRef .tc Cert.KernelIdeal.main_arg1) = Wr (Proc.devRef .tc Cert.ReferenceIdeal.main_arg1))
    (h2 : Wk (Proc.devRef .tc Cert.KernelIdeal.main_arg2) = Wr (Proc.devRef .tc Cert.ReferenceIdeal.main_arg2))
    (h3 : Wk (Proc.devRef .tc Cert.KernelIdeal.main_arg3) = Wr (Proc.devRef .tc Cert.ReferenceIdeal.main_arg3))
    (hb : Wk (Proc.devRef .tc Cert.KernelIdeal.main_arg7) = Wr (Proc.devRef .tc Cert.ReferenceIdeal.main_arg7)) :
    after Cert.KernelIdeal.Gen.hostOps2_1 (after Cert.KernelIdeal.Gen.hostOps2 Wk) (Proc.devRef .tc Cert.KernelIdeal.main_v35)
      = after Cert.ReferenceIdeal.HostRun.host2 Wr (Proc.devRef .tc Cert.ReferenceIdeal.main_v35) := by
  after_results_simp
  rw [hv, h1, h2, h3, hb]
  rfl

set_option maxHeartbeats 16000000 in
/-- The sparse step after the third dense layer, with the third bias, and the row-wise log-softmax (the row maximum, the
    exponentials' sum and its logarithm): again one function of the layer's output, the graph and the bias in both programs. -/
theorem third
    (Wk : Valuation Cert.KernelIdeal.τ Cert.KernelIdeal.sig (Elt Ideal)) (Wr : Valuation Cert.ReferenceIdeal.τ Cert.ReferenceIdeal.sig (Elt Ideal))
    (hv : Wk (Proc.devRef .tc Cert.KernelIdeal.main_v36) = Wr (Proc.devRef .tc Cert.ReferenceIdeal.main_v36))
    (h1 : Wk (Proc.devRef .tc Cert.KernelIdeal.main_arg1) = Wr (Proc.devRef .tc Cert.ReferenceIdeal.main_arg1))
    (h2 : Wk (Proc.devRef .tc Cert.KernelIdeal.main_arg2) = Wr (Proc.devRef .tc Cert.ReferenceIdeal.main_arg2))
    (h3 : Wk (Proc.devRef .tc Cert.KernelIdeal.main_arg3) = Wr (Proc.devRef .tc Cert.ReferenceIdeal.main_arg3))
    (hb : Wk (Proc.devRef .tc Cert.KernelIdeal.main_arg9) = Wr (Proc.devRef .tc Cert.ReferenceIdeal.main_arg9)) :
    after Cert.KernelIdeal.Gen.hostOps3_1 (after Cert.KernelIdeal.Gen.hostOps3 Wk) (Proc.devRef .tc Cert.KernelIdeal.main_v53)
      = after Cert.ReferenceIdeal.HostRun.host3 Wr (Proc.devRef .tc Cert.ReferenceIdeal.main_v53) := by
  after_results_simp
  rw [hv, h1, h2, h3, hb]
  rfl

end Cert.Gcn.Stretch

end
-- ==== Proof.Boundary.lean ====
/-
  From the launch to the result: the two programs hold equal values at every dense layer's boundary.

  The kernel program's buffer contents are followed through its nine segments (the folds `W1` … `W9` of the frame),
  the reference's through its operation list cut at the three contractions (`R1` … `R6`). At each boundary the graph
  arrays and the parameter arrays are still the launch arrays on both sides, because no operation and no pallas_call
  writes an argument; a dense layer's output is the product of its two inputs on both sides (the row-blocked
  pallas_call by the cover of its blocks, the host contraction read at an index); and a stretch of host operations is
  the same function of its inputs on both sides. So from launch memories that agree on the arguments the two
  programs' results are equal.
-/
import proofs.«120037_j78580721648121_1_alg».proof.Proof.Region1
import proofs.«120037_j78580721648121_1_alg».proof.Proof.Region2
import proofs.«120037_j78580721648121_1_alg».proof.Proof.RefHost
import proofs.«120037_j78580721648121_1_alg».proof.Proof.Stretches

set_option maxRecDepth 16384

noncomputable section

namespace Cert.Gcn.Boundary

open Idealize.ShloMosaic Idealize.ShloMosaic.TcCoe Idealize.SL.Sem Idealize.ShloMosaic.StableHlo Cert.Gcn

/-- Equal tables have equal products. -/
theorem prod_congr {M K N : Nat} {a a' : (⟨2, ![M, K]⟩ : Shape).Idx → EReal} {w w' : (⟨2, ![K, N]⟩ : Shape).Idx → EReal}
    (ha : a = a') (hw : w = w') : prod a w = prod a' w' := by rw [ha, hw]

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-! ## The kernel program: the arguments at each boundary -/
theorem k1_arg1 : Cert.KernelIdeal.Gen.W1 m ρ c (Proc.devRef .tc Cert.KernelIdeal.main_arg1) = m ((c : Thread Cert.KernelIdeal.nD Cert.KernelIdeal.τ).loc Cert.KernelIdeal.main_arg1) :=
  Cert.KernelIdeal.Gen.W1_of_ne m ρ c Cert.KernelIdeal.main_arg1 (by decide)
theorem k1_arg2 : Cert.KernelIdeal.Gen.W1 m ρ c (Proc.devRef .tc Cert.KernelIdeal.main_arg2) = m ((c : Thread Cert.KernelIdeal.nD Cert.KernelIdeal.τ).loc Cert.KernelIdeal.main_arg2) :=
  Cert.KernelIdeal.Gen.W1_of_ne m ρ c Cert.KernelIdeal.main_arg2 (by decide)
theorem k1_arg3 : Cert.KernelIdeal.Gen.W1 m ρ c (Proc.devRef .tc Cert.KernelIdeal.main_arg3) = m ((c : Thread Cert.KernelIdeal.nD Cert.KernelIdeal.τ).loc Cert.KernelIdeal.main_arg3) :=
  Cert.KernelIdeal.Gen.W1_of_ne m ρ c Cert.KernelIdeal.main_arg3 (by decide)
theorem k1_arg5 : Cert.KernelIdeal.Gen.W1 m ρ c (Proc.devRef .tc Cert.KernelIdeal.main_arg5) = m ((c : Thread Cert.KernelIdeal.nD Cert.KernelIdeal.τ).loc Cert.KernelIdeal.main_arg5) :=
  Cert.KernelIdeal.Gen.W1_of_ne m ρ c Cert.KernelIdeal.main_arg5 (by decide)
theorem k1_arg6 : Cert.KernelIdeal.Gen.W1 m ρ c (Proc.devRef .tc Cert.KernelIdeal.main_arg6) = m ((c : Thread Cert.KernelIdeal.nD Cert.KernelIdeal.τ).loc Cert.KernelIdeal.main_arg6) :=
  Cert.KernelIdeal.Gen.W1_of_ne m ρ c Cert.KernelIdeal.main_arg6 (by decide)
theorem k1_arg7 : Cert.KernelIdeal.Gen.W1 m ρ c (Proc.devRef .tc Cert.KernelIdeal.main_arg7) = m ((c : Thread Cert.KernelIdeal.nD Cert.KernelIdeal.τ).loc Cert.KernelIdeal.main_arg7) :=
  Cert.KernelIdeal.Gen.W1_of_ne m ρ c Cert.KernelIdeal.main_arg7 (by decide)
theorem k1_arg8 : Cert.KernelIdeal.Gen.W1 m ρ c (Proc.devRef .tc Cert.KernelIdeal.main_arg8) = m ((c : Thread Cert.KernelIdeal.nD Cert.KernelIdeal.τ).loc Cert.KernelIdeal.main_arg8) :=
  Cert.KernelIdeal.Gen.W1_of_ne m ρ c Cert.KernelIdeal.main_arg8 (by decide)
theorem k1_arg9 : Cert.KernelIdeal.Gen.W1 m ρ c (Proc.devRef .tc Cert.KernelIdeal.main_arg9) = m ((c : Thread Cert.KernelIdeal.nD Cert.KernelIdeal.τ).loc Cert.KernelIdeal.main_arg9) :=
  Cert.KernelIdeal.Gen.W1_of_ne m ρ c Cert.KernelIdeal.main_arg9 (by decide)

set_option maxHeartbeats 2000000 in
theorem k3_arg1 : Cert.KernelIdeal.Gen.W3 m ρ c (Proc.devRef .tc Cert.KernelIdeal.main_arg1) = m ((c : Thread Cert.KernelIdeal.nD Cert.KernelIdeal.τ).loc Cert.KernelIdeal.main_arg1) := by
  show after Cert.KernelIdeal.Gen.hostOps1_1 (after Cert.KernelIdeal.Gen.hostOps1 (Cert.KernelIdeal.Gen.W1 m ρ c)) (Proc.devRef .tc Cert.KernelIdeal.main_arg1) = _
  after_results_simp <;> exact k1_arg1 m ρ c
set_option maxHeartbeats 2000000 in
theorem k3_arg2 : Cert.KernelIdeal.Gen.W3 m ρ c (Proc.devRef .tc Cert.KernelIdeal.main_arg2) = m ((c : Thread Cert.KernelIdeal.nD Cert.KernelIdeal.τ).loc Cert.KernelIdeal.main_arg2) := by
  show after Cert.KernelIdeal.Gen.hostOps1_1 (after Cert.KernelIdeal.Gen.hostOps1 (Cert.KernelIdeal.Gen.W1 m ρ c)) (Proc.devRef .tc Cert.KernelIdeal.main_arg2) = _
  after_results_simp <;> exact k1_arg2 m ρ c
set_option maxHeartbeats 2000000 in
theorem k3_arg3 : Cert.KernelIdeal.Gen.W3 m ρ c (Proc.devRef .tc Cert.KernelIdeal.main_arg3) = m ((c : Thread Cert.KernelIdeal.nD Cert.KernelIdeal.τ).loc Cert.KernelIdeal.main_arg3) := by
  show after Cert.KernelIdeal.Gen.hostOps1_1 (after Cert.KernelIdeal.Gen.hostOps1 (Cert.KernelIdeal.Gen.W1 m ρ c)) (Proc.devRef .tc Cert.KernelIdeal.main_arg3) = _
  after_results_simp <;> exact k1_arg3 m ρ c
set_option maxHeartbeats 2000000 in
theorem k3_arg6 : Cert.KernelIdeal.Gen.W3 m ρ c (Proc.devRef .tc Cert.KernelIdeal.main_arg6) = m ((c : Thread Cert.KernelIdeal.nD Cert.KernelIdeal.τ).loc Cert.KernelIdeal.main_arg6) := by
  show after Cert.KernelIdeal.Gen.hostOps1_1 (after Cert.KernelIdeal.Gen.hostOps1 (Cert.KernelIdeal.Gen.W1 m ρ c)) (Proc.devRef .tc Cert.KernelIdeal.main_arg6) = _
  after_results_simp <;> exact k1_arg6 m ρ c
set_option maxHeartbeats 2000000 in
theorem k3_arg7 : Cert.KernelIdeal.Gen.W3 m ρ c (Proc.devRef .tc Cert.KernelIdeal.main_arg7) = m ((c : Thread Cert.KernelIdeal.nD Cert.KernelIdeal.τ).loc Cert.KernelIdeal.main_arg7) := by
  show after Cert.KernelIdeal.Gen.hostOps1_1 (after Cert.KernelIdeal.Gen.hostOps1 (Cert.KernelIdeal.Gen.W1 m ρ c)) (Proc.devRef .tc Cert.KernelIdeal.main_arg7) = _
  after_results_simp <;> exact k1_arg7 m ρ c
set_option maxHeartbeats 2000000 in
theorem k3_arg8 : Cert.KernelIdeal.Gen.W3 m ρ c (Proc.devRef .tc Cert.KernelIdeal.main_arg8) = m ((c : Thread Cert.KernelIdeal.nD Cert.KernelIdeal.τ).loc Cert.KernelIdeal.main_arg8) := by
  show after Cert.KernelIdeal.Gen.hostOps1_1 (after Cert.KernelIdeal.Gen.hostOps1 (Cert.KernelIdeal.Gen.W1 m ρ c)) (Proc.devRef .tc Cert.KernelIdeal.main_arg8) = _
  after_results_simp <;> exact k1_arg8 m ρ c
set_option maxHeartbeats 2000000 in
theorem k3_arg9 : Cert.KernelIdeal.Gen.W3 m ρ c (Proc.devRef .tc Cert.KernelIdeal.main_arg9) = m ((c : Thread Cert.KernelIdeal.nD Cert.KernelIdeal.τ).loc Cert.KernelIdeal.main_arg9) := by
  show after Cert.KernelIdeal.Gen.hostOps1_1 (after Cert.KernelIdeal.Gen.hostOps1 (Cert.KernelIdeal.Gen.W1 m ρ c)) (Proc.devRef .tc Cert.KernelIdeal.main_arg9) = _
  after_results_simp <;> exact k1_arg9 m ρ c

theorem k4_arg1 : Cert.KernelIdeal.Gen.W4 m ρ c (Proc.devRef .tc Cert.KernelIdeal.main_arg1) = m ((c : Thread Cert.KernelIdeal.nD Cert.KernelIdeal.τ).loc Cert.KernelIdeal.main_arg1) :=
  (Cert.KernelIdeal.Gen.W4_of_ne m ρ c Cert.KernelIdeal.main_arg1 (by decide)).trans (k3_arg1 m ρ c)
theorem k4_arg2 : Cert.KernelIdeal.Gen.W4 m ρ c (Proc.devRef .tc Cert.KernelIdeal.main_arg2) = m ((c : Thread Cert.KernelIdeal.nD Cert.KernelIdeal.τ).loc Cert.KernelIdeal.main_arg2) :=
  (Cert.KernelIdeal.Gen.W4_of_ne m ρ c Cert.KernelIdeal.main_arg2 (by decide)).trans (k3_arg2 m ρ c)
theorem k4_arg3 : Cert.KernelIdeal.Gen.W4 m ρ c (Proc.devRef .tc Cert.KernelIdeal.main_arg3) = m ((c : Thread Cert.KernelIdeal.nD Cert.KernelIdeal.τ).loc Cert.KernelIdeal.main_arg3) :=
  (Cert.KernelIdeal.Gen.W4_of_ne m ρ c Cert.KernelIdeal.main_arg3 (by decide)).trans (k3_arg3 m ρ c)
theorem k4_arg7 : Cert.KernelIdeal.Gen.W4 m ρ c (Proc.devRef .tc Cert.KernelIdeal.main_arg7) = m ((c : Thread Cert.KernelIdeal.nD Cert.KernelIdeal.τ).loc Cert.KernelIdeal.main_arg7) :=
  (Cert.KernelIdeal.Gen.W4_of_ne m ρ c Cert.KernelIdeal.main_arg7 (by decide)).trans (k3_arg7 m ρ c)
theorem k4_arg8 : Cert.KernelIdeal.Gen.W4 m ρ c (Proc.devRef .tc Cert.KernelIdeal.main_arg8) = m ((c : Thread Cert.KernelIdeal.nD Cert.KernelIdeal.τ).loc Cert.KernelIdeal.main_arg8) :=
  (Cert.KernelIdeal.Gen.W4_of_ne m ρ c Cert.KernelIdeal.main_arg8 (by decide)).trans (k3_arg8 m ρ c)
theorem k4_arg9 : Cert.KernelIdeal.Gen.W4 m ρ c (Proc.devRef .tc Cert.KernelIdeal.main_arg9) = m ((c : Thread Cert.KernelIdeal.nD Cert.KernelIdeal.τ).loc Cert.KernelIdeal.main_arg9) :=
  (Cert.KernelIdeal.Gen.W4_of_ne m ρ c Cert.KernelIdeal.main_arg9 (by decide)).trans (k3_arg9 m ρ c)

set_option maxHeartbeats 2000000 in
theorem k6_arg1 : Cert.KernelIdeal.Gen.W6 m ρ c (Proc.devRef .tc Cert.KernelIdeal.main_arg1) = m ((c : Thread Cert.KernelIdeal.nD Cert.KernelIdeal.τ).loc Cert.KernelIdeal.main_arg1) := by
  show after Cert.KernelIdeal.Gen.hostOps2_1 (after Cert.KernelIdeal.Gen.hostOps2 (Cert.KernelIdeal.Gen.W4 m ρ c)) (Proc.devRef .tc Cert.KernelIdeal.main_arg1) = _
  after_results_simp <;> exact k4_arg1 m ρ c
set_option maxHeartbeats 2000000 in
theorem k6_arg2 : Cert.KernelIdeal.Gen.W6 m ρ c (Proc.devRef .tc Cert.KernelIdeal.main_arg2) = m ((c : Thread Cert.KernelIdeal.nD Cert.KernelIdeal.τ).loc Cert.KernelIdeal.main_arg2) := by
  show after Cert.KernelIdeal.Gen.hostOps2_1 (after Cert.KernelIdeal.Gen.hostOps2 (Cert.KernelIdeal.Gen.W4 m ρ c)) (Proc.devRef .tc Cert.KernelIdeal.main_arg2) = _
  after_results_simp <;> exact k4_arg2 m ρ c
set_option maxHeartbeats 2000000 in
theorem k6_arg3 : Cert.KernelIdeal.Gen.W6 m ρ c (Proc.devRef .tc Cert.KernelIdeal.main_arg3) = m ((c : Thread Cert.KernelIdeal.nD Cert.KernelIdeal.τ).loc Cert.KernelIdeal.main_arg3) := by
  show after Cert.KernelIdeal.Gen.hostOps2_1 (after Cert.KernelIdeal.Gen.hostOps2 (Cert.KernelIdeal.Gen.W4 m ρ c)) (Proc.devRef .tc Cert.KernelIdeal.main_arg3) = _
  after_results_simp <;> exact k4_arg3 m ρ c
set_option maxHeartbeats 2000000 in
theorem k6_arg8 : Cert.KernelIdeal.Gen.W6 m ρ c (Proc.devRef .tc Cert.KernelIdeal.main_arg8) = m ((c : Thread Cert.KernelIdeal.nD Cert.KernelIdeal.τ).loc Cert.KernelIdeal.main_arg8) := by
  show after Cert.KernelIdeal.Gen.hostOps2_1 (after Cert.KernelIdeal.Gen.hostOps2 (Cert.KernelIdeal.Gen.W4 m ρ c)) (Proc.devRef .tc Cert.KernelIdeal.main_arg8) = _
  after_results_simp <;> exact k4_arg8 m ρ c
set_option maxHeartbeats 2000000 in
theorem k6_arg9 : Cert.KernelIdeal.Gen.W6 m ρ c (Proc.devRef .tc Cert.KernelIdeal.main_arg9) = m ((c : Thread Cert.KernelIdeal.nD Cert.KernelIdeal.τ).loc Cert.KernelIdeal.main_arg9) := by
  show after Cert.KernelIdeal.Gen.hostOps2_1 (after Cert.KernelIdeal.Gen.hostOps2 (Cert.KernelIdeal.Gen.W4 m ρ c)) (Proc.devRef .tc Cert.KernelIdeal.main_arg9) = _
  after_results_simp <;> exact k4_arg9 m ρ c

theorem k7_arg1 : Cert.KernelIdeal.Gen.W7 m ρ c (Proc.devRef .tc Cert.KernelIdeal.main_arg1) = m ((c : Thread Cert.KernelIdeal.nD Cert.KernelIdeal.τ).loc Cert.KernelIdeal.main_arg1) :=
  (Cert.KernelIdeal.Gen.W7_of_ne m ρ c Cert.KernelIdeal.main_arg1 (by decide)).trans (k6_arg1 m ρ c)
theorem k7_arg2 : Cert.KernelIdeal.Gen.W7 m ρ c (Proc.devRef .tc Cert.KernelIdeal.main_arg2) = m ((c : Thread Cert.KernelIdeal.nD Cert.KernelIdeal.τ).loc Cert.KernelIdeal.main_arg2) :=
  (Cert.KernelIdeal.Gen.W7_of_ne m ρ c Cert.KernelIdeal.main_arg2 (by decide)).trans (k6_arg2 m ρ c)
theorem k7_arg3 : Cert.KernelIdeal.Gen.W7 m ρ c (Proc.devRef .tc Cert.KernelIdeal.main_arg3) = m ((c : Thread Cert.KernelIdeal.nD Cert.KernelIdeal.τ).loc Cert.KernelIdeal.main_arg3) :=
  (Cert.KernelIdeal.Gen.W7_of_ne m ρ c Cert.KernelIdeal.main_arg3 (by decide)).trans (k6_arg3 m ρ c)
theorem k7_arg9 : Cert.KernelIdeal.Gen.W7 m ρ c (Proc.devRef .tc Cert.KernelIdeal.main_arg9) = m ((c : Thread Cert.KernelIdeal.nD Cert.KernelIdeal.τ).loc Cert.KernelIdeal.main_arg9) :=
  (Cert.KernelIdeal.Gen.W7_of_ne m ρ c Cert.KernelIdeal.main_arg9 (by decide)).trans (k6_arg9 m ρ c)

/-! ## The kernel program: each dense layer's output -/

/-- The first pallas_call leaves the product of the node features with the first weight table. -/
theorem k1_out : Cert.KernelIdeal.Gen.W1 m ρ c (Proc.devRef .tc Cert.KernelIdeal.main_v0)
    = prod (M := 20000) (K := 512) (N := 512) (m ((c : Thread Cert.KernelIdeal.nD Cert.KernelIdeal.τ).loc Cert.KernelIdeal.main_arg0)) (m ((c : Thread Cert.KernelIdeal.nD Cert.KernelIdeal.τ).loc Cert.KernelIdeal.main_arg4)) :=
  (Cert.KernelIdeal.Gen.W1_arr m ρ c 2).trans (Cert.KernelIdeal.Layer0.array_eq (Cert.KernelIdeal.Gen.V0 m ρ) c)

/-- The second leaves the product of what it finds in the first layer's activations with the second weight table. -/
theorem k4_out : Cert.KernelIdeal.Gen.W4 m ρ c (Proc.devRef .tc Cert.KernelIdeal.main_v18)
    = prod (M := 20000) (K := 512) (N := 512) (Cert.KernelIdeal.Gen.W3 m ρ c (Proc.devRef .tc Cert.KernelIdeal.main_v17)) (Cert.KernelIdeal.Gen.W3 m ρ c (Proc.devRef .tc Cert.KernelIdeal.main_arg6)) :=
  (Cert.KernelIdeal.Gen.W4_arr m ρ c 2).trans (Cert.KernelIdeal.Layer1.array_eq (Cert.KernelIdeal.Gen.V3 m ρ) c)

/-- The third leaves the product of the second layer's activations with the third weight table. -/
theorem k7_out : Cert.KernelIdeal.Gen.W7 m ρ c (Proc.devRef .tc Cert.KernelIdeal.main_v36)
    = prod (M := 20000) (K := 512) (N := 64) (Cert.KernelIdeal.Gen.W6 m ρ c (Proc.devRef .tc Cert.KernelIdeal.main_v35)) (Cert.KernelIdeal.Gen.W6 m ρ c (Proc.devRef .tc Cert.KernelIdeal.main_arg8)) :=
  (Cert.KernelIdeal.Gen.W7_arr m ρ c 2).trans (Cert.KernelIdeal.Layer2.array_eq (Cert.KernelIdeal.Gen.V6 m ρ) c)

/-! ## The reference: the contents at each cut -/

/-- After the first contraction. -/
abbrev R1 : Valuation Cert.ReferenceIdeal.τ Cert.ReferenceIdeal.sig (Elt Ideal) := after [Cert.ReferenceIdeal.HostRun.dense0] (launchContents m' c)
/-- After the first sparse step. -/
abbrev R2 : Valuation Cert.ReferenceIdeal.τ Cert.ReferenceIdeal.sig (Elt Ideal) := after Cert.ReferenceIdeal.HostRun.host1 (R1 m' c)
/-- After the second contraction. -/
abbrev R3 : Valuation Cert.ReferenceIdeal.τ Cert.ReferenceIdeal.sig (Elt Ideal) := after [Cert.ReferenceIdeal.HostRun.dense1] (R2 m' c)
/-- After the second sparse step. -/
abbrev R4 : Valuation Cert.ReferenceIdeal.τ Cert.ReferenceIdeal.sig (Elt Ideal) := after Cert.ReferenceIdeal.HostRun.host2 (R3 m' c)
/-- After the third contraction. -/
abbrev R5 : Valuation Cert.ReferenceIdeal.τ Cert.ReferenceIdeal.sig (Elt Ideal) := after [Cert.ReferenceIdeal.HostRun.dense2] (R4 m' c)
/-- After the last sparse step and the log-softmax: the end of @main. -/
abbrev R6 : Valuation Cert.ReferenceIdeal.τ Cert.ReferenceIdeal.sig (Elt Ideal) := after Cert.ReferenceIdeal.HostRun.host3 (R5 m' c)

/-- The whole list's fold is the cuts' folds one after another. -/
theorem after_ops : after Cert.ReferenceIdeal.HostRun.ops (launchContents m' c) = R6 m' c := by
  rw [Cert.ReferenceIdeal.HostRun.ops_cut]
  simp only [after_cons, Cert.ReferenceIdeal.HostRun.after_append, after_nil]

/-! ## The reference: the arguments at each cut -/
theorem r1_arg1 : R1 m' c (Proc.devRef .tc Cert.ReferenceIdeal.main_arg1) = m' ((c : Thread Cert.ReferenceIdeal.nD Cert.ReferenceIdeal.τ).loc Cert.ReferenceIdeal.main_arg1) := by
  show after [Cert.ReferenceIdeal.HostRun.dense0] (launchContents m' c) (Proc.devRef .tc Cert.ReferenceIdeal.main_arg1) = _
  after_results_simp <;> rfl
theorem r1_arg2 : R1 m' c (Proc.devRef .tc Cert.ReferenceIdeal.main_arg2) = m' ((c : Thread Cert.ReferenceIdeal.nD Cert.ReferenceIdeal.τ).loc Cert.ReferenceIdeal.main_arg2) := by
  show after [Cert.ReferenceIdeal.HostRun.dense0] (launchContents m' c) (Proc.devRef .tc Cert.ReferenceIdeal.main_arg2) = _
  after_results_simp <;> rfl
theorem r1_arg3 : R1 m' c (Proc.devRef .tc Cert.ReferenceIdeal.main_arg3) = m' ((c : Thread Cert.ReferenceIdeal.nD Cert.ReferenceIdeal.τ).loc Cert.ReferenceIdeal.main_arg3) := by
  show after [Cert.ReferenceIdeal.HostRun.dense0] (launchContents m' c) (Proc.devRef .tc Cert.ReferenceIdeal.main_arg3) = _
  after_results_simp <;> rfl
theorem r1_arg5 : R1 m' c (Proc.devRef .tc Cert.ReferenceIdeal.main_arg5) = m' ((c : Thread Cert.ReferenceIdeal.nD Cert.ReferenceIdeal.τ).loc Cert.ReferenceIdeal.main_arg5) := by
  show after [Cert.ReferenceIdeal.HostRun.dense0] (launchContents m' c) (Proc.devRef .tc Cert.ReferenceIdeal.main_arg5) = _
  after_results_simp <;> rfl
theorem r1_arg6 : R1 m' c (Proc.devRef .tc Cert.ReferenceIdeal.main_arg6) = m' ((c : Thread Cert.ReferenceIdeal.nD Cert.ReferenceIdeal.τ).loc Cert.ReferenceIdeal.main_arg6) := by
  show after [Cert.ReferenceIdeal.HostRun.dense0] (launchContents m' c) (Proc.devRef .tc Cert.ReferenceIdeal.main_arg6) = _
  after_results_simp <;> rfl
theorem r1_arg7 : R1 m' c (Proc.devRef .tc Cert.ReferenceIdeal.main_arg7) = m' ((c : Thread Cert.ReferenceIdeal.nD Cert.ReferenceIdeal.τ).loc Cert.ReferenceIdeal.main_arg7) := by
  show after [Cert.ReferenceIdeal.HostRun.dense0] (launchContents m' c) (Proc.devRef .tc Cert.ReferenceIdeal.main_arg7) = _
  after_results_simp <;> rfl
theorem r1_arg8 : R1 m' c (Proc.devRef .tc Cert.ReferenceIdeal.main_arg8) = m' ((c : Thread Cert.ReferenceIdeal.nD Cert.ReferenceIdeal.τ).loc Cert.ReferenceIdeal.main_arg8) := by
  show after [Cert.ReferenceIdeal.HostRun.dense0] (launchContents m' c) (Proc.devRef .tc Cert.ReferenceIdeal.main_arg8) = _
  after_results_simp <;> rfl
theorem r1_arg9 : R1 m' c (Proc.devRef .tc Cert.ReferenceIdeal.main_arg9) = m' ((c : Thread Cert.ReferenceIdeal.nD Cert.ReferenceIdeal.τ).loc Cert.ReferenceIdeal.main_arg9) := by
  show after [Cert.ReferenceIdeal.HostRun.dense0] (launchContents m' c) (Proc.devRef .tc Cert.ReferenceIdeal.main_arg9) = _
  after_results_simp <;> rfl

set_option maxHeartbeats 2000000 in
theorem r2_arg1 : R2 m' c (Proc.devRef .tc Cert.ReferenceIdeal.main_arg1) = m' ((c : Thread Cert.ReferenceIdeal.nD Cert.ReferenceIdeal.τ).loc Cert.ReferenceIdeal.main_arg1) := by
  show after Cert.ReferenceIdeal.HostRun.host1 (R1 m' c) (Proc.devRef .tc Cert.ReferenceIdeal.main_arg1) = _
  after_results_simp <;> exact r1_arg1 m' c
set_option maxHeartbeats 2000000 in
theorem r2_arg2 : R2 m' c (Proc.devRef .tc Cert.ReferenceIdeal.main_arg2) = m' ((c : Thread Cert.ReferenceIdeal.nD Cert.ReferenceIdeal.τ).loc Cert.ReferenceIdeal.main_arg2) := by
  show after Cert.ReferenceIdeal.HostRun.host1 (R1 m' c) (Proc.devRef .tc Cert.ReferenceIdeal.main_arg2) = _
  after_results_simp <;> exact r1_arg2 m' c
set_option maxHeartbeats 2000000 in
theorem r2_arg3 : R2 m' c (Proc.devRef .tc Cert.ReferenceIdeal.main_arg3) = m' ((c : Thread Cert.ReferenceIdeal.nD Cert.ReferenceIdeal.τ).loc Cert.ReferenceIdeal.main_arg3) := by
  show after Cert.ReferenceIdeal.HostRun.host1 (R1 m' c) (Proc.devRef .tc Cert.ReferenceIdeal.main_arg3) = _
  after_results_simp <;> exact r1_arg3 m' c
set_option maxHeartbeats 2000000 in
theorem r2_arg6 : R2 m' c (Proc.devRef .tc Cert.ReferenceIdeal.main_arg6) = m' ((c : Thread Cert.ReferenceIdeal.nD Cert.ReferenceIdeal.τ).loc Cert.ReferenceIdeal.main_arg6) := by
  show after Cert.ReferenceIdeal.HostRun.host1 (R1 m' c) (Proc.devRef .tc Cert.ReferenceIdeal.main_arg6) = _
  after_results_simp <;> exact r1_arg6 m' c
set_option maxHeartbeats 2000000 in
theorem r2_arg7 : R2 m' c (Proc.devRef .tc Cert.ReferenceIdeal.main_arg7) = m' ((c : Thread Cert.ReferenceIdeal.nD Cert.ReferenceIdeal.τ).loc Cert.ReferenceIdeal.main_arg7) := by
  show after Cert.ReferenceIdeal.HostRun.host1 (R1 m' c) (Proc.devRef .tc Cert.ReferenceIdeal.main_arg7) = _
  after_results_simp <;> exact r1_arg7 m' c
set_option maxHeartbeats 2000000 in
theorem r2_arg8 : R2 m' c (Proc.devRef .tc Cert.ReferenceIdeal.main_arg8) = m' ((c : Thread Cert.ReferenceIdeal.nD Cert.ReferenceIdeal.τ).loc Cert.ReferenceIdeal.main_arg8) := by
  show after Cert.ReferenceIdeal.HostRun.host1 (R1 m' c) (Proc.devRef .tc Cert.ReferenceIdeal.main_arg8) = _
  after_results_simp <;> exact r1_arg8 m' c
set_option maxHeartbeats 2000000 in
theorem r2_arg9 : R2 m' c (Proc.devRef .tc Cert.ReferenceIdeal.main_arg9) = m' ((c : Thread Cert.ReferenceIdeal.nD Cert.ReferenceIdeal.τ).loc Cert.ReferenceIdeal.main_arg9) := by
  show after Cert.ReferenceIdeal.HostRun.host1 (R1 m' c) (Proc.devRef .tc Cert.ReferenceIdeal.main_arg9) = _
  after_results_simp <;> exact r1_arg9 m' c

theorem r3_arg1 : R3 m' c (Proc.devRef .tc Cert.ReferenceIdeal.main_arg1) = m' ((c : Thread Cert.ReferenceIdeal.nD Cert.ReferenceIdeal.τ).loc Cert.ReferenceIdeal.main_arg1) := by
  show after [Cert.ReferenceIdeal.HostRun.dense1] (R2 m' c) (Proc.devRef .tc Cert.ReferenceIdeal.main_arg1) = _
  after_results_simp <;> exact r2_arg1 m' c
theorem r3_arg2 : R3 m' c (Proc.devRef .tc Cert.ReferenceIdeal.main_arg2) = m' ((c : Thread Cert.ReferenceIdeal.nD Cert.ReferenceIdeal.τ).loc Cert.ReferenceIdeal.main_arg2) := by
  show after [Cert.ReferenceIdeal.HostRun.dense1] (R2 m' c) (Proc.devRef .tc Cert.ReferenceIdeal.main_arg2) = _
  after_results_simp <;> exact r2_arg2 m' c
theorem r3_arg3 : R3 m' c (Proc.devRef .tc Cert.ReferenceIdeal.main_arg3) = m' ((c : Thread Cert.ReferenceIdeal.nD Cert.ReferenceIdeal.τ).loc Cert.ReferenceIdeal.main_arg3) := by
  show after [Cert.ReferenceIdeal.HostRun.dense1] (R2 m' c) (Proc.devRef .tc Cert.ReferenceIdeal.main_arg3) = _
  after_results_simp <;> exact r2_arg3 m' c
theorem r3_arg7 : R3 m' c (Proc.devRef .tc Cert.ReferenceIdeal.main_arg7) = m' ((c : Thread Cert.ReferenceIdeal.nD Cert.ReferenceIdeal.τ).loc Cert.ReferenceIdeal.main_arg7) := by
  show after [Cert.ReferenceIdeal.HostRun.dense1] (R2 m' c) (Proc.devRef .tc Cert.ReferenceIdeal.main_arg7) = _
  after_results_simp <;> exact r2_arg7 m' c
theorem r3_arg8 : R3 m' c (Proc.devRef .tc Cert.ReferenceIdeal.main_arg8) = m' ((c : Thread Cert.ReferenceIdeal.nD Cert.ReferenceIdeal.τ).loc Cert.ReferenceIdeal.main_arg8) := by
  show after [Cert.ReferenceIdeal.HostRun.dense1] (R2 m' c) (Proc.devRef .tc Cert.ReferenceIdeal.main_arg8) = _
  after_results_simp <;> exact r2_arg8 m' c
theorem r3_arg9 : R3 m' c (Proc.devRef .tc Cert.ReferenceIdeal.main_arg9) = m' ((c : Thread Cert.ReferenceIdeal.nD Cert.ReferenceIdeal.τ).loc Cert.ReferenceIdeal.main_arg9) := by
  show after [Cert.ReferenceIdeal.HostRun.dense1] (R2 m' c) (Proc.devRef .tc Cert.ReferenceIdeal.main_arg9) = _
  after_results_simp <;> exact r2_arg9 m' c

set_option maxHeartbeats 2000000 in
theorem r4_arg1 : R4 m' c (Proc.devRef .tc Cert.ReferenceIdeal.main_arg1) = m' ((c : Thread Cert.ReferenceIdeal.nD Cert.ReferenceIdeal.τ).loc Cert.ReferenceIdeal.main_arg1) := by
  show after Cert.ReferenceIdeal.HostRun.host2 (R3 m' c) (Proc.devRef .tc Cert.ReferenceIdeal.main_arg1) = _
  after_results_simp <;> exact r3_arg1 m' c
set_option maxHeartbeats 2000000 in
theorem r4_arg2 : R4 m' c (Proc.devRef .tc Cert.ReferenceIdeal.main_arg2) = m' ((c : Thread Cert.ReferenceIdeal.nD Cert.ReferenceIdeal.τ).loc Cert.ReferenceIdeal.main_arg2) := by
  show after Cert.ReferenceIdeal.HostRun.host2 (R3 m' c) (Proc.devRef .tc Cert.ReferenceIdeal.main_arg2) = _
  after_results_simp <;> exact r3_arg2 m' c
set_option maxHeartbeats 2000000 in
theorem r4_arg3 : R4 m' c (Proc.devRef .tc Cert.ReferenceIdeal.main_arg3) = m' ((c : Thread Cert.ReferenceIdeal.nD Cert.ReferenceIdeal.τ).loc Cert.ReferenceIdeal.main_arg3) := by
  show after Cert.ReferenceIdeal.HostRun.host2 (R3 m' c) (Proc.devRef .tc Cert.ReferenceIdeal.main_arg3) = _
  after_results_simp <;> exact r3_arg3 m' c
set_option maxHeartbeats 2000000 in
theorem r4_arg8 : R4 m' c (Proc.devRef .tc Cert.ReferenceIdeal.main_arg8) = m' ((c : Thread Cert.ReferenceIdeal.nD Cert.ReferenceIdeal.τ).loc Cert.ReferenceIdeal.main_arg8) := by
  show after Cert.ReferenceIdeal.HostRun.host2 (R3 m' c) (Proc.devRef .tc Cert.ReferenceIdeal.main_arg8) = _
  after_results_simp <;> exact r3_arg8 m' c
set_option maxHeartbeats 2000000 in
theorem r4_arg9 : R4 m' c (Proc.devRef .tc Cert.ReferenceIdeal.main_arg9) = m' ((c : Thread Cert.ReferenceIdeal.nD Cert.ReferenceIdeal.τ).loc Cert.ReferenceIdeal.main_arg9) := by
  show after Cert.ReferenceIdeal.HostRun.host2 (R3 m' c) (Proc.devRef .tc Cert.ReferenceIdeal.main_arg9) = _
  after_results_simp <;> exact r3_arg9 m' c

theorem r5_arg1 : R5 m' c (Proc.devRef .tc Cert.ReferenceIdeal.main_arg1) = m' ((c : Thread Cert.ReferenceIdeal.nD Cert.ReferenceIdeal.τ).loc Cert.ReferenceIdeal.main_arg1) := by
  show after [Cert.ReferenceIdeal.HostRun.dense2] (R4 m' c) (Proc.devRef .tc Cert.ReferenceIdeal.main_arg1) = _
  after_results_simp <;> exact r4_arg1 m' c
theorem r5_arg2 : R5 m' c (Proc.devRef .tc Cert.ReferenceIdeal.main_arg2) = m' ((c : Thread Cert.ReferenceIdeal.nD Cert.ReferenceIdeal.τ).loc Cert.ReferenceIdeal.main_arg2) := by
  show after [Cert.ReferenceIdeal.HostRun.dense2] (R4 m' c) (Proc.devRef .tc Cert.ReferenceIdeal.main_arg2) = _
  after_results_simp <;> exact r4_arg2 m' c
theorem r5_arg3 : R5 m' c (Proc.devRef .tc Cert.ReferenceIdeal.main_arg3) = m' ((c : Thread Cert.ReferenceIdeal.nD Cert.ReferenceIdeal.τ).loc Cert.ReferenceIdeal.main_arg3) := by
  show after [Cert.ReferenceIdeal.HostRun.dense2] (R4 m' c) (Proc.devRef .tc Cert.ReferenceIdeal.main_arg3) = _
  after_results_simp <;> exact r4_arg3 m' c
theorem r5_arg9 : R5 m' c (Proc.devRef .tc Cert.ReferenceIdeal.main_arg9) = m' ((c : Thread Cert.ReferenceIdeal.nD Cert.ReferenceIdeal.τ).loc Cert.ReferenceIdeal.main_arg9) := by
  show after [Cert.ReferenceIdeal.HostRun.dense2] (R4 m' c) (Proc.devRef .tc Cert.ReferenceIdeal.main_arg9) = _
  after_results_simp <;> exact r4_arg9 m' c

/-! ## The reference: each contraction's output -/

theorem r1_out : R1 m' c (Proc.devRef .tc Cert.ReferenceIdeal.main_v0)
    = prod (M := 20000) (K := 512) (N := 512) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg4)) := by
  show after [Cert.ReferenceIdeal.HostRun.dense0] (launchContents m' c) (Proc.devRef .tc Cert.ReferenceIdeal.main_v0) = _
  after_results_simp <;> exact Cert.ReferenceIdeal.HostRun.wide_eq_prod _ _

theorem r3_out : R3 m' c (Proc.devRef .tc Cert.ReferenceIdeal.main_v18)
    = prod (M := 20000) (K := 512) (N := 512) (R2 m' c (Proc.devRef .tc Cert.ReferenceIdeal.main_v17)) (R2 m' c (Proc.devRef .tc Cert.ReferenceIdeal.main_arg6)) := by
  show after [Cert.ReferenceIdeal.HostRun.dense1] (R2 m' c) (Proc.devRef .tc Cert.ReferenceIdeal.main_v18) = _
  after_results_simp <;> exact Cert.ReferenceIdeal.HostRun.wide_eq_prod _ _

theorem r5_out : R5 m' c (Proc.devRef .tc Cert.ReferenceIdeal.main_v36)
    = prod (M := 20000) (K := 512) (N := 64) (R4 m' c (Proc.devRef .tc Cert.ReferenceIdeal.main_v35)) (R4 m' c (Proc.devRef .tc Cert.ReferenceIdeal.main_arg8)) := by
  show after [Cert.ReferenceIdeal.HostRun.dense2] (R4 m' c) (Proc.devRef .tc Cert.ReferenceIdeal.main_v36) = _
  after_results_simp <;> exact Cert.ReferenceIdeal.HostRun.narrow_eq_prod _ _

/-! ## The chain -/

section Chain

variable (g0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
  (g1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
  (g2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
  (g3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
  (g4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
  (g5 : m' ((c : Thread Cert.ReferenceIdeal.nD Cert.ReferenceIdeal.τ).loc Cert.ReferenceIdeal.main_arg5) = m ((c : Thread Cert.KernelIdeal.nD Cert.KernelIdeal.τ).loc Cert.KernelIdeal.main_arg5))
  (g6 : m' ((c : Thread Cert.ReferenceIdeal.nD Cert.ReferenceIdeal.τ).loc Cert.ReferenceIdeal.main_arg6) = m ((c : Thread Cert.KernelIdeal.nD Cert.KernelIdeal.τ).loc Cert.KernelIdeal.main_arg6))
  (g7 : m' ((c : Thread Cert.ReferenceIdeal.nD Cert.ReferenceIdeal.τ).loc Cert.ReferenceIdeal.main_arg7) = m ((c : Thread Cert.KernelIdeal.nD Cert.KernelIdeal.τ).loc Cert.KernelIdeal.main_arg7))
  (g8 : m' ((c : Thread Cert.ReferenceIdeal.nD Cert.ReferenceIdeal.τ).loc Cert.ReferenceIdeal.main_arg8) = m ((c : Thread Cert.KernelIdeal.nD Cert.KernelIdeal.τ).loc Cert.KernelIdeal.main_arg8))
  (g9 : m' ((c : Thread Cert.ReferenceIdeal.nD Cert.ReferenceIdeal.τ).loc Cert.ReferenceIdeal.main_arg9) = m ((c : Thread Cert.KernelIdeal.nD Cert.KernelIdeal.τ).loc Cert.KernelIdeal.main_arg9))

include g0 g4 in
/-- The first layer's output. -/
theorem out0 : Cert.KernelIdeal.Gen.W1 m ρ c (Proc.devRef .tc Cert.KernelIdeal.main_v0) = R1 m' c (Proc.devRef .tc Cert.ReferenceIdeal.main_v0) :=
  (k1_out m ρ c).trans ((prod_congr g0 g4).symm.trans (r1_out m' c).symm)

include g0 g1 g2 g3 g4 g5 in
/-- The first layer's activations. -/
theorem out17 : Cert.KernelIdeal.Gen.W3 m ρ c (Proc.devRef .tc Cert.KernelIdeal.main_v17) = R2 m' c (Proc.devRef .tc Cert.ReferenceIdeal.main_v17) :=
  Stretch.first (Cert.KernelIdeal.Gen.W1 m ρ c) (R1 m' c) (out0 m ρ m' c g0 g4)
    ((k1_arg1 m ρ c).trans (g1.symm.trans (r1_arg1 m' c).symm))
    ((k1_arg2 m ρ c).trans (g2.symm.trans (r1_arg2 m' c).symm))
    ((k1_arg3 m ρ c).trans (g3.symm.trans (r1_arg3 m' c).symm))
    ((k1_arg5 m ρ c).trans (g5.symm.trans (r1_arg5 m' c).symm))

include g0 g1 g2 g3 g4 g5 g6 in
/-- The second layer's output. -/
theorem out18 : Cert.KernelIdeal.Gen.W4 m ρ c (Proc.devRef .tc Cert.KernelIdeal.main_v18) = R3 m' c (Proc.devRef .tc Cert.ReferenceIdeal.main_v18) :=
  (k4_out m ρ c).trans ((prod_congr (out17 m ρ m' c g0 g1 g2 g3 g4 g5)
    ((k3_arg6 m ρ c).trans (g6.symm.trans (r2_arg6 m' c).symm))).trans (r3_out m' c).symm)

include g0 g1 g2 g3 g4 g5 g6 g7 in
/-- The second layer's activations. -/
theorem out35 : Cert.KernelIdeal.Gen.W6 m ρ c (Proc.devRef .tc Cert.KernelIdeal.main_v35) = R4 m' c (Proc.devRef .tc Cert.ReferenceIdeal.main_v35) :=
  Stretch.second (Cert.KernelIdeal.Gen.W4 m ρ c) (R3 m' c) (out18 m ρ m' c g0 g1 g2 g3 g4 g5 g6)
    ((k4_arg1 m ρ c).trans (g1.symm.trans (r3_arg1 m' c).symm))
    ((k4_arg2 m ρ c).trans (g2.symm.trans (r3_arg2 m' c).symm))
    ((k4_arg3 m ρ c).trans (g3.symm.trans (r3_arg3 m' c).symm))
    ((k4_arg7 m ρ c).trans (g7.symm.trans (r3_arg7 m' c).symm))

include g0 g1 g2 g3 g4 g5 g6 g7 g8 in
/-- The third layer's output. -/
theorem out36 : Cert.KernelIdeal.Gen.W7 m ρ c (Proc.devRef .tc Cert.KernelIdeal.main_v36) = R5 m' c (Proc.devRef .tc Cert.ReferenceIdeal.main_v36) :=
  (k7_out m ρ c).trans ((prod_congr (out35 m ρ m' c g0 g1 g2 g3 g4 g5 g6 g7)
    ((k6_arg8 m ρ c).trans (g8.symm.trans (r4_arg8 m' c).symm))).trans (r5_out m' c).symm)

include g0 g1 g2 g3 g4 g5 g6 g7 g8 g9 in
/-- The results: the kernel program's last boundary read at its result buffer is the reference's whole fold read at
    its result buffer. -/
theorem result_eq : Cert.KernelIdeal.Gen.W9 m ρ c (Proc.devRef .tc Cert.KernelIdeal.main_v53) = after Cert.ReferenceIdeal.HostRun.ops (launchContents m' c) (Proc.devRef .tc Cert.ReferenceIdeal.main_v53) :=
  (Stretch.third (Cert.KernelIdeal.Gen.W7 m ρ c) (R5 m' c) (out36 m ρ m' c g0 g1 g2 g3 g4 g5 g6 g7 g8)
    ((k7_arg1 m ρ c).trans (g1.symm.trans (r5_arg1 m' c).symm))
    ((k7_arg2 m ρ c).trans (g2.symm.trans (r5_arg2 m' c).symm))
    ((k7_arg3 m ρ c).trans (g3.symm.trans (r5_arg3 m' c).symm))
    ((k7_arg9 m ρ c).trans (g9.symm.trans (r5_arg9 m' c).symm))).trans
    (congrFun (after_ops m' c).symm _)

end Chain

end Cert.Gcn.Boundary

end
-- ==== Proof.lean ====
/-
  A three-layer graph convolution, its dense layers run as row-blocked pallas_calls, against the same network in jnp:
  equal results on the extended reals.

  Both programs compute, for node features x (20000 × 512), an edge list (sources, destinations, weights; 320000 edges)
  and three weight tables and biases, three layers h ↦ A(h · W) + b — A the weighted sum of the rows of h · W over the
  edges into each destination node — with a maximum with zero after the first two and a row-wise log-softmax after the
  third. They differ only in how h · W is computed: the reference in one contraction, the kernel in ten row blocks of
  2000 rows, each block the contraction of that block of h (through a change of float format that is the identity on
  the extended reals) with the whole of W into a zero accumulator. Entry (r, q) of either is the sum over k of
  h(r, k) · W(k, q) in the same order, so the two agree entry by entry with no algebraic law used and no finiteness of
  the inputs needed; everything else is the same host operations applied to equal inputs, compared stretch by stretch
  without opening them.

  The frames of the two kernel programs are the generated ones. The reference has no kernel launch: its run is the fold
  of its host operations' results, and since none writes an argument its frame is that run with the result dropped. The
  idealization rewrote no operation, so there is nothing to preserve.
-/
import proofs.«120037_j78580721648121_1_alg».proof.Defs
import proofs.«120037_j78580721648121_1_alg».proof.Proof.Gen.Kernel
import proofs.«120037_j78580721648121_1_alg».proof.Proof.Gen.Kernel.Skeleton
import proofs.«120037_j78580721648121_1_alg».proof.Proof.Gen.Kernel.Launch
import proofs.«120037_j78580721648121_1_alg».proof.Proof.Gen.Kernel.Points
import proofs.«120037_j78580721648121_1_alg».proof.Proof.Gen.Kernel.Frame
import proofs.«120037_j78580721648121_1_alg».proof.Proof.Gen.KernelIdeal
import proofs.«120037_j78580721648121_1_alg».proof.Proof.Gen.KernelIdeal.Skeleton
import proofs.«120037_j78580721648121_1_alg».proof.Proof.Gen.KernelIdeal.Launch
import proofs.«120037_j78580721648121_1_alg».proof.Proof.Gen.KernelIdeal.Points
import proofs.«120037_j78580721648121_1_alg».proof.Proof.Gen.KernelIdeal.Frame
import proofs.«120037_j78580721648121_1_alg».proof.Proof.Gen.ReferenceIdeal
import proofs.«120037_j78580721648121_1_alg».proof.Proof.Gen.Pre_finite_inputs
import proofs.«120037_j78580721648121_1_alg».proof.Proof.KernelRun
import proofs.«120037_j78580721648121_1_alg».proof.Proof.RefFrame
import proofs.«120037_j78580721648121_1_alg».proof.Proof.Boundary
import Idealize.ShloMosaic.Adequacy
import Idealize.ShloMosaic.Init

noncomputable section

namespace Cert.Proof

open Idealize.ShloMosaic Idealize.ShloMosaic.TcCoe Idealize.SL.Sem Idealize.ShloMosaic.StableHlo

/-- The kernel program as printed runs, and leaves its arguments. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs, and none of its operations writes an argument. -/
theorem frame_reference : Cert.frame_ReferenceIdeal := fun m ρ _ => Cert.ReferenceIdeal.HostRun.frame (F := Ideal) m ρ

/-- The idealization rewrote nothing. -/
theorem preserves : Cert.preserves_Kernel_KernelIdeal := trivial

/-- From memories that agree on the arguments both idealized programs run, and their results — the kernel program's last
    boundary read at its result buffer, the reference's fold read at its result buffer — are equal. -/
theorem algebraic : Cert.algebraic_KernelIdeal_ReferenceIdeal := by
  intro m ρ m' ρ' _ hagree
  refine ⟨fun c => Cert.KernelIdeal.Gen.W9 m ρ c (Proc.devRef .tc Cert.KernelIdeal.main_v53),
    Cert.KernelIdeal.ResultRun.run_result (F := Ideal) m ρ, ?_⟩
  refine (θ_run Cert.ReferenceIdeal.defs _ _).mono (fun _ h c => ⟨(h c).1.trans ?_, (h c).2⟩)
    (Cert.ReferenceIdeal.HostRun.run_result (F := Ideal) m' ρ')
  obtain ⟨g0, g1, g2, g3, g4, g5, g6, g7, g8, g9⟩ := hagree c
  exact (Cert.Gcn.Boundary.result_eq m ρ m' c g0 g1 g2 g3 g4 g5 g6 g7 g8 g9).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
